-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S8192 : Shape := ⟨1, ![8192]⟩

abbrev nBuf : Space → Nat
  | .hbm => 84
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S_, .f32⟩
  | .hbm, ⟨68, _⟩ => ⟨S64x128, .f32⟩
  | .hbm, ⟨69, _⟩ => ⟨S100000x1, .i32⟩
  | .hbm, ⟨70, _⟩ => ⟨S64x128, .f32⟩
  | .hbm, ⟨71, _⟩ => ⟨S_, .f32⟩
  | .hbm, ⟨72, _⟩ => ⟨S100000, .f32⟩
  | .hbm, ⟨73, _⟩ => ⟨S_, .f32⟩
  | .hbm, ⟨74, _⟩ => ⟨S64, .f32⟩
  | .hbm, ⟨75, _⟩ => ⟨S100000x1, .i32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64x1, .f32⟩
  | .hbm, ⟨81, _⟩ => ⟨S64x128, .f32⟩
  | .hbm, ⟨82, _⟩ => ⟨S64x128, .f32⟩
  | .hbm, ⟨83, _⟩ => ⟨S8192, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64x128_S8192 : S64x128.ShapeCasts S8192
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S8192 : Shape := ⟨1, ![8192]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S64x128, .f32⟩
  | .hbm, ⟨102, _⟩ => ⟨S100000x1, .i32⟩
  | .hbm, ⟨103, _⟩ => ⟨S64x128, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S64, .f32⟩
  | .hbm, ⟨108, _⟩ => ⟨S100000x1, .i32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64x1, .f32⟩
  | .hbm, ⟨114, _⟩ => ⟨S64x128, .f32⟩
  | .hbm, ⟨115, _⟩ => ⟨S64x128, .f32⟩
  | .hbm, ⟨116, _⟩ => ⟨S8192, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_c_2 : Ref sig .tc := ⟨.hbm, 47, rfl⟩
abbrev main_v26 : Ref sig .tc := ⟨.hbm, 48, rfl⟩
abbrev main_v27 : Ref sig .tc := ⟨.hbm, 49, rfl⟩
abbrev main_c_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_c_6 : Ref sig .tc := ⟨.hbm, 75, rfl⟩
abbrev main_v48 : Ref sig .tc := ⟨.hbm, 76, rfl⟩
abbrev main_v49 : Ref sig .tc := ⟨.hbm, 77, rfl⟩
abbrev main_c_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_11 : Ref sig .tc := ⟨.hbm, 104, rfl⟩
abbrev main_v72 : Ref sig .tc := ⟨.hbm, 105, rfl⟩
abbrev main_cst_12 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64x128_S8192 : S64x128.ShapeCasts S8192
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel program's run with its result named.

  The program is three kernel regions among four stretches of host operations. Its run is the launch of the segments
  in order: every stretch takes the buffers' contents at one boundary to the contents at the next, every region
  replaces its output array by what its grid points write back. So every weakly fair execution terminates without a
  fault, the argument arrays end as launched, and the result buffer ends at what the last boundary's contents hold at
  it: the fold of the four stretches and the three regions from the launch memory.
-/
import proofs.«150781_j69114613727581_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v55 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.Run

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibDenseSteps.lean ====
/-
  The dense steps of a two-layer graph convolution, entry by entry on the extended reals.

  * `prod x w`: the product of an [a, n] matrix with an [n, b] matrix; entry (p, e) is the sum over k of
    x(p, k) * w(k, e). The matrix unit's product into a zero accumulator and the host's general product
    contracting axis 1 with axis 0 are both this function, whatever float formats hold the operands.
  * `biasRelu g β`: a length-n vector β added along every row of an [a, n] matrix g, then the larger of the
    sum and zero, entry by entry: max (g(p, e) + β(e), 0).
  * `addRow g β`: the same without the maximum: g(p, e) + β(e).
  Each is proved equal to the spelling a kernel body gives it on a block of rows (the vector given as a one-row
  matrix and repeated down the rows) and to the spelling of the host program (the vector laid along axis 1 of a
  one-row matrix, then repeated along axis 0). No finiteness is used: only the definitions of the operations.
-/
import Idealize.ShloMosaic.PureOps.Ideal.Laws
import Idealize.ShloMosaic.Lib.ValueIdx
import Idealize.ShloMosaic.Lib.ValueLayout
import Idealize.ShloMosaic.Lib.Pipeline.Value
import proofs.«150781_j69114613727581_2_alg».proof.Proof.LibColsMatmul

noncomputable section

namespace Cert.Layers

open Idealize.ShloMosaic Idealize.ShloMosaic.ValueIdx Cert.ColsMatmul

variable {a n b : ℕ}

/-- The matrix product: entry (p, e) is the sum over k of x(p, k) * w(k, e). -/
def prod (x : (⟨2, ![a, n]⟩ : Shape).Idx → EReal) (w : (⟨2, ![n, b]⟩ : Shape).Idx → EReal) :
    (⟨2, ![a, b]⟩ : Shape).Idx → EReal :=
  fun i => ∑ k : Fin n, x (ix2 (i 0) k) * w (ix2 k (i 1))

theorem prod_apply (x : (⟨2, ![a, n]⟩ : Shape).Idx → EReal) (w : (⟨2, ![n, b]⟩ : Shape).Idx → EReal) (p : Fin a) (e : Fin b) :
    prod x w (ix2 p e) = ∑ k : Fin n, x (ix2 p k) * w (ix2 k e) := rfl

/-- A one-row matrix β added along every row of g, then the larger of the sum and zero. -/
def biasReluRow (g : (⟨2, ![a, n]⟩ : Shape).Idx → EReal) (β : (⟨2, ![1, n]⟩ : Shape).Idx → EReal) :
    (⟨2, ![a, n]⟩ : Shape).Idx → EReal :=
  fun i => max (g i + β (ix2 (0 : Fin 1) (i 1))) (Ideal.ofBits .f32 0x00000000#32)

/-- A vector β added along every row of g, then the larger of the sum and zero. -/
def biasRelu (g : (⟨2, ![a, n]⟩ : Shape).Idx → EReal) (β : (⟨1, ![n]⟩ : Shape).Idx → EReal) :
    (⟨2, ![a, n]⟩ : Shape).Idx → EReal :=
  fun i => max (g i + β (ix1 (i 1))) (Ideal.ofBits .f32 0x00000000#32)

/-- A one-row matrix β added along every row of g. -/
def addRowRow (g : (⟨2, ![a, n]⟩ : Shape).Idx → EReal) (β : (⟨2, ![1, n]⟩ : Shape).Idx → EReal) :
    (⟨2, ![a, n]⟩ : Shape).Idx → EReal :=
  fun i => g i + β (ix2 (0 : Fin 1) (i 1))

/-- A vector β added along every row of g. -/
def addRow (g : (⟨2, ![a, n]⟩ : Shape).Idx → EReal) (β : (⟨1, ![n]⟩ : Shape).Idx → EReal) :
    (⟨2, ![a, n]⟩ : Shape).Idx → EReal :=
  fun i => g i + β (ix1 (i 1))

/-- An entry of a product depends on one row of the left factor and one column of the right factor. -/
theorem prod_congr {a' b' : ℕ} (x : (⟨2, ![a, n]⟩ : Shape).Idx → EReal) (w : (⟨2, ![n, b]⟩ : Shape).Idx → EReal)
    (x' : (⟨2, ![a', n]⟩ : Shape).Idx → EReal) (w' : (⟨2, ![n, b']⟩ : Shape).Idx → EReal)
    (i : (⟨2, ![a, b]⟩ : Shape).Idx) (i' : (⟨2, ![a', b']⟩ : Shape).Idx)
    (hx : ∀ k : Fin n, x (ix2 (i 0) k) = x' (ix2 (i' 0) k)) (hw : ∀ k : Fin n, w (ix2 k (i 1)) = w' (ix2 k (i' 1))) :
    prod x w i = prod x' w' i' :=
  Finset.sum_congr rfl fun k _ => by rw [hx k, hw k]

/-- An entry of the rectified sum depends on that entry of the matrix and that entry of the row. -/
theorem biasReluRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal) (p : Fin a) (p' : Fin a') (k : Fin n)
    (hg : g (ix2 p k) = g' (ix2 p' k)) (hβ : β (ix2 (0 : Fin 1) k) = β' (ix2 (0 : Fin 1) k)) :
    biasReluRow g β (ix2 p k) = biasReluRow g' β' (ix2 p' k) := by
  show max (g (ix2 p k) + β (ix2 (0 : Fin 1) k)) _ = max (g' (ix2 p' k) + β' (ix2 (0 : Fin 1) k)) _
  rw [hg, hβ]

/-- An entry of the sum with a row depends on that entry of the matrix and that entry of the row. -/
theorem addRowRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal)
    (i : (⟨2, ![a, n]⟩ : Shape).Idx) (i' : (⟨2, ![a', n]⟩ : Shape).Idx)
    (hg : g i = g' i') (hβ : β (ix2 (0 : Fin 1) (i 1)) = β' (ix2 (0 : Fin 1) (i' 1))) :
    addRowRow g β i = addRowRow g' β' i' := by
  show g i + β (ix2 (0 : Fin 1) (i 1)) = g' i' + β' (ix2 (0 : Fin 1) (i' 1))
  rw [hg, hβ]

/-! ## The two products -/

variable (wf : DotDims.WF ⟨2, ![a, n]⟩ ⟨2, ![n, b]⟩ ⟨2, ![a, b]⟩ [1] [0] [0] [1] [] [])

/-- The matrix unit's product of an [a, n] and an [n, b] operand into the zero accumulator is `prod`. -/
theorem matmul_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    FloatOps.matmul d none x w (constant ⟨2, ![a, b]⟩ .f32 0x00000000#32) = prod x w := by
  funext i
  obtain ⟨p, e, rfl⟩ : ∃ (p : Fin a) (e : Fin b), i = ix2 p e := ⟨i 0, i 1, eq_ix2 i⟩
  exact cols_matmul wf d hd x w p e

/-- The host's general product contracting axis 1 of the left operand with axis 0 of the right is `prod`. -/
theorem dotGeneral_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    Host.dotGeneral d none x w = prod x w := by
  subst hd
  funext i
  obtain ⟨p, e, rfl⟩ : ∃ (p : Fin a) (e : Fin b), i = ix2 p e := ⟨i 0, i 1, eq_ix2 i⟩
  exact (Ideal.dotGeneral_apply (colsDims wf) none .single x w (ix2 p e)).trans (contraction_cols wf x w p e)

/-! ## A vector along the rows -/

/-- A vector seen as a one-row matrix reads its entry e at (0, e). -/
theorem row_of_vector (β : (⟨1, ![n]⟩ : Shape).Idx → EReal) (h : (⟨1, ![n]⟩ : Shape).ShapeCasts ⟨2, ![1, n]⟩) (e : Fin n) :
    shapeCast ⟨2, ![1, n]⟩ β h (ix2 (0 : Fin 1) e) = β (ix1 e) :=
  shapeCast_a_1a_apply β h (0 : Fin 1) e

theorem biasReluRow_row (g : (⟨2, ![a, n]⟩ : Shape).Idx → EReal) (β : (⟨1, ![n]⟩ : Shape).Idx → EReal)
    (h : (⟨1, ![n]⟩ : Shape).ShapeCasts ⟨2, ![1, n]⟩) :
    biasReluRow g (shapeCast ⟨2, ![1, n]⟩ β h) = biasRelu g β := by
  funext i
  obtain ⟨p, e, rfl⟩ : ∃ (p : Fin a) (e : Fin n), i = ix2 p e := ⟨i 0, i 1, eq_ix2 i⟩
  show max (g (ix2 p e) + shapeCast ⟨2, ![1, n]⟩ β h (ix2 (0 : Fin 1) e)) (Ideal.ofBits .f32 0x00000000#32)
    = max (g (ix2 p e) + β (ix1 e)) (Ideal.ofBits .f32 0x00000000#32)
  rw [row_of_vector]

theorem addRowRow_row (g : (⟨2, ![a, n]⟩ : Shape).Idx → EReal) (β : (⟨1, ![n]⟩ : Shape).Idx → EReal)
    (h : (⟨1, ![n]⟩ : Shape).ShapeCasts ⟨2, ![1, n]⟩) :
    addRowRow g (shapeCast ⟨2, ![1, n]⟩ β h) = addRow g β := by
  funext i
  obtain ⟨p, e, rfl⟩ : ∃ (p : Fin a) (e : Fin n), i = ix2 p e := ⟨i 0, i 1, eq_ix2 i⟩
  show g (ix2 p e) + shapeCast ⟨2, ![1, n]⟩ β h (ix2 (0 : Fin 1) e) = g (ix2 p e) + β (ix1 e)
  rw [row_of_vector]

/-! ## The kernel's vector spelling, on a block of rows -/

/-- A block g and a one-row block β: β repeated down the rows, added, and the maximum with a zero splat. -/
theorem kernel_biasRelu (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    maximumf (addf (shapeCast ⟨2, ![a, n]⟩ g hg) (broadcastTo ⟨2, ![a, n]⟩ (shapeCast ⟨2, ![1, n]⟩ β hβ) hb))
        (broadcast ⟨2, ![a, n]⟩ (Scalar.ofBits (F := Ideal) .f32 0x00000000#32))
      = biasReluRow g β := by
  rw [shapeCast_self, shapeCast_self]
  funext i
  obtain ⟨p, e, rfl⟩ : ∃ (p : Fin a) (e : Fin n), i = ix2 p e := ⟨i 0, i 1, eq_ix2 i⟩
  show max (g (ix2 p e) + broadcastTo ⟨2, ![a, n]⟩ β hb (ix2 p e)) (Ideal.ofBits .f32 0x00000000#32) = _
  rw [broadcastTo_1b_ab_apply]
  rfl

/-- The same without the maximum. -/
theorem kernel_addRow (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    addf (shapeCast ⟨2, ![a, n]⟩ g hg) (broadcastTo ⟨2, ![a, n]⟩ (shapeCast ⟨2, ![1, n]⟩ β hβ) hb) = addRowRow g β := by
  rw [shapeCast_self, shapeCast_self]
  funext i
  obtain ⟨p, e, rfl⟩ : ∃ (p : Fin a) (e : Fin n), i = ix2 p e := ⟨i 0, i 1, eq_ix2 i⟩
  show g (ix2 p e) + broadcastTo ⟨2, ![a, n]⟩ β hb (ix2 p e) = _
  rw [broadcastTo_1b_ab_apply]
  rfl

/-! ## The host's spelling -/

/-- The host lays a vector along axis 1 of a one-row matrix and repeats that along axis 0: at (p, e) it reads β(e). -/
theorem host_row (β : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (e : Fin n) :
    broadcastInDim ⟨2, ![a, n]⟩ ![0, 1] h2 (broadcastInDim ⟨2, ![1, n]⟩ ![1] h1 β) (ix2 p e) = β (ix1 e) := by
  rw [broadcastInDim_apply ![0, 1] h2 _ (ix2 p e) (ix2 (0 : Fin 1) e) (fun ax => by
    match ax with
    | ⟨0, _⟩ => rfl
    | ⟨1, _⟩ =>
      show e.val = if n = 1 then 0 else e.val
      split
      · have := e.isLt; omega
      · rfl)]
  exact broadcastInDim_apply ![1] h1 β (ix2 (0 : Fin 1) e) (ix1 e) (fun ax => by
    match ax with
    | ⟨0, _⟩ =>
      show e.val = if n = 1 then 0 else e.val
      split
      · have := e.isLt; omega
      · rfl)

/-- The host's sum with a vector along the rows. -/
theorem host_addRow (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) :
    addf g (broadcastInDim ⟨2, ![a, n]⟩ ![0, 1] h2 (broadcastInDim ⟨2, ![1, n]⟩ ![1] h1 β)) = addRow g β := by
  funext i
  obtain ⟨p, e, rfl⟩ : ∃ (p : Fin a) (e : Fin n), i = ix2 p e := ⟨i 0, i 1, eq_ix2 i⟩
  show g (ix2 p e) + broadcastInDim ⟨2, ![a, n]⟩ ![0, 1] h2 (broadcastInDim ⟨2, ![1, n]⟩ ![1] h1 β) (ix2 p e) = _
  rw [host_row]
  rfl

/-- The host's sum with a vector along the rows followed by the maximum with a zero splat. -/
theorem host_biasRelu (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) :
    maximumf (addf g (broadcastInDim ⟨2, ![a, n]⟩ ![0, 1] h2 (broadcastInDim ⟨2, ![1, n]⟩ ![1] h1 β)))
        (broadcastInDim ⟨2, ![a, n]⟩ ![] h0 (constant (F := Ideal) ⟨0, ![]⟩ .f32 0x00000000#32))
      = biasRelu g β := by
  rw [host_addRow]
  funext i
  show max (addRow g β i) (broadcastInDim ⟨2, ![a, n]⟩ ![] h0 (constant (F := Ideal) ⟨0, ![]⟩ .f32 0x00000000#32) i) = _
  rw [broadcastInDim_apply ![] h0 _ i ix0 (fun ax => ax.elim0)]
  rfl

end Cert.Layers

end
-- ==== Proof.LibGinLayer.lean ====
/-
  One layer of a graph isomorphism network on the extended reals, entry by entry.

  For a matrix x of a rows and n columns and the matrix s of the neighbour sums of its rows, the layer first adds the
  two, then applies a two-step perceptron: h = max ((s + x)·W₁ + b₁, 0) and then h·W₂ + b₂, the biases added
  along every row. The last layer of the network stops there; the earlier ones end with one more maximum with zero.
  Both forms are stated twice: with the biases as one-row matrices (what a block of rows of the kernel sees) and as
  vectors (what the host program sees); a vector seen as a one-row matrix gives the same layer.
  Every entry of row p of the result depends on row p of s and of x only, so the layer of a block of rows is the
  block of rows of the layer. No finiteness is used anywhere: the two programs apply the same operations in the same
  order, and only the definitions of the operations are opened.
-/
import Idealize.ShloMosaic.PureOps.Ideal.Laws
import Idealize.ShloMosaic.Lib.ValueIdx
import Idealize.ShloMosaic.Lib.ValueLayout
import Idealize.ShloMosaic.Lib.Pipeline.Value
import proofs.«150781_j69114613727581_2_alg».proof.Proof.LibDenseSteps

noncomputable section

namespace Cert.Gin

open Idealize.ShloMosaic Idealize.ShloMosaic.ValueIdx Cert.ColsMatmul Cert.Layers

variable {a n : ℕ}

/-- The sum of two matrices, entry by entry. -/
def plus (s x : (⟨2, ![a, n]⟩ : Shape).Idx → EReal) : (⟨2, ![a, n]⟩ : Shape).Idx → EReal := fun i => s i + x i

/-- A layer that ends with the maximum with zero, the biases one-row matrices. -/
def layerReluRow (s x : (⟨2, ![a, n]⟩ : Shape).Idx → EReal) (w1 : (⟨2, ![n, n]⟩ : Shape).Idx → EReal)
    (β1 : (⟨2, ![1, n]⟩ : Shape).Idx → EReal) (w2 : (⟨2, ![n, n]⟩ : Shape).Idx → EReal)
    (β2 : (⟨2, ![1, n]⟩ : Shape).Idx → EReal) : (⟨2, ![a, n]⟩ : Shape).Idx → EReal :=
  biasReluRow (prod (biasReluRow (prod (plus s x) w1) β1) w2) β2

/-- A layer that ends with the second bias, the biases one-row matrices. -/
def layerLinRow (s x : (⟨2, ![a, n]⟩ : Shape).Idx → EReal) (w1 : (⟨2, ![n, n]⟩ : Shape).Idx → EReal)
    (β1 : (⟨2, ![1, n]⟩ : Shape).Idx → EReal) (w2 : (⟨2, ![n, n]⟩ : Shape).Idx → EReal)
    (β2 : (⟨2, ![1, n]⟩ : Shape).Idx → EReal) : (⟨2, ![a, n]⟩ : Shape).Idx → EReal :=
  addRowRow (prod (biasReluRow (prod (plus s x) w1) β1) w2) β2

/-- A layer that ends with the maximum with zero, the biases vectors. -/
def layerRelu (s x : (⟨2, ![a, n]⟩ : Shape).Idx → EReal) (w1 : (⟨2, ![n, n]⟩ : Shape).Idx → EReal)
    (b1 : (⟨1, ![n]⟩ : Shape).Idx → EReal) (w2 : (⟨2, ![n, n]⟩ : Shape).Idx → EReal)
    (b2 : (⟨1, ![n]⟩ : Shape).Idx → EReal) : (⟨2, ![a, n]⟩ : Shape).Idx → EReal :=
  biasRelu (prod (biasRelu (prod (plus s x) w1) b1) w2) b2

/-- A layer that ends with the second bias, the biases vectors. -/
def layerLin (s x : (⟨2, ![a, n]⟩ : Shape).Idx → EReal) (w1 : (⟨2, ![n, n]⟩ : Shape).Idx → EReal)
    (b1 : (⟨1, ![n]⟩ : Shape).Idx → EReal) (w2 : (⟨2, ![n, n]⟩ : Shape).Idx → EReal)
    (b2 : (⟨1, ![n]⟩ : Shape).Idx → EReal) : (⟨2, ![a, n]⟩ : Shape).Idx → EReal :=
  addRow (prod (biasRelu (prod (plus s x) w1) b1) w2) b2

/-! ## A vector seen as a one-row matrix gives the same layer -/

theorem layerReluRow_of_vectors (s x : (⟨2, ![a, n]⟩ : Shape).Idx → EReal) (w1 w2 : (⟨2, ![n, n]⟩ : Shape).Idx → EReal)
    (b1 b2 : (⟨1, ![n]⟩ : Shape).Idx → EReal) (h : (⟨1, ![n]⟩ : Shape).ShapeCasts ⟨2, ![1, n]⟩) :
    layerReluRow s x w1 (shapeCast ⟨2, ![1, n]⟩ b1 h) w2 (shapeCast ⟨2, ![1, n]⟩ b2 h) = layerRelu s x w1 b1 w2 b2 := by
  unfold layerReluRow layerRelu
  rw [biasReluRow_row, biasReluRow_row]

theorem layerLinRow_of_vectors (s x : (⟨2, ![a, n]⟩ : Shape).Idx → EReal) (w1 w2 : (⟨2, ![n, n]⟩ : Shape).Idx → EReal)
    (b1 b2 : (⟨1, ![n]⟩ : Shape).Idx → EReal) (h : (⟨1, ![n]⟩ : Shape).ShapeCasts ⟨2, ![1, n]⟩) :
    layerLinRow s x w1 (shapeCast ⟨2, ![1, n]⟩ b1 h) w2 (shapeCast ⟨2, ![1, n]⟩ b2 h) = layerLin s x w1 b1 w2 b2 := by
  unfold layerLinRow layerLin
  rw [biasReluRow_row, addRowRow_row]

/-! ## Row p of the layer depends on row p of the two matrices -/

theorem layerReluRow_congr {a' : ℕ} (s x : (⟨2, ![a, n]⟩ : Shape).Idx → EReal) (s' x' : (⟨2, ![a', n]⟩ : Shape).Idx → EReal)
    (w1 w2 : (⟨2, ![n, n]⟩ : Shape).Idx → EReal) (β1 β2 : (⟨2, ![1, n]⟩ : Shape).Idx → EReal)
    (p : Fin a) (p' : Fin a') (e : Fin n)
    (hs : ∀ k : Fin n, s (ix2 p k) = s' (ix2 p' k)) (hx : ∀ k : Fin n, x (ix2 p k) = x' (ix2 p' k)) :
    layerReluRow s x w1 β1 w2 β2 (ix2 p e) = layerReluRow s' x' w1 β1 w2 β2 (ix2 p' e) := by
  unfold layerReluRow
  refine biasReluRow_congr _ _ _ _ p p' e ?_ rfl
  refine prod_congr _ _ _ _ (ix2 p e) (ix2 p' e) (fun k => ?_) (fun k => rfl)
  refine biasReluRow_congr _ _ _ _ p p' k ?_ rfl
  refine prod_congr _ _ _ _ (ix2 p k) (ix2 p' k) (fun q => ?_) (fun q => rfl)
  show s (ix2 p q) + x (ix2 p q) = s' (ix2 p' q) + x' (ix2 p' q)
  rw [hs q, hx q]

theorem layerLinRow_congr {a' : ℕ} (s x : (⟨2, ![a, n]⟩ : Shape).Idx → EReal) (s' x' : (⟨2, ![a', n]⟩ : Shape).Idx → EReal)
    (w1 w2 : (⟨2, ![n, n]⟩ : Shape).Idx → EReal) (β1 β2 : (⟨2, ![1, n]⟩ : Shape).Idx → EReal)
    (p : Fin a) (p' : Fin a') (e : Fin n)
    (hs : ∀ k : Fin n, s (ix2 p k) = s' (ix2 p' k)) (hx : ∀ k : Fin n, x (ix2 p k) = x' (ix2 p' k)) :
    layerLinRow s x w1 β1 w2 β2 (ix2 p e) = layerLinRow s' x' w1 β1 w2 β2 (ix2 p' e) := by
  unfold layerLinRow
  refine addRowRow_congr _ _ _ _ (ix2 p e) (ix2 p' e) ?_ rfl
  refine prod_congr _ _ _ _ (ix2 p e) (ix2 p' e) (fun k => ?_) (fun k => rfl)
  refine biasReluRow_congr _ _ _ _ p p' k ?_ rfl
  refine prod_congr _ _ _ _ (ix2 p k) (ix2 p' k) (fun q => ?_) (fun q => rfl)
  show s (ix2 p q) + x (ix2 p q) = s' (ix2 p' q) + x' (ix2 p' q)
  rw [hs q, hx q]

/-! ## A block of rows of the layer: the rows matched, the weights and biases the same -/

theorem layerReluRow_block {a' : ℕ} (s x : (⟨2, ![a, n]⟩ : Shape).Idx → EReal) (w1 w2 : (⟨2, ![n, n]⟩ : Shape).Idx → EReal)
    (β1 β2 : (⟨2, ![1, n]⟩ : Shape).Idx → EReal) (s' x' : (⟨2, ![a', n]⟩ : Shape).Idx → EReal)
    (w1' w2' : (⟨2, ![n, n]⟩ : Shape).Idx → EReal) (β1' β2' : (⟨2, ![1, n]⟩ : Shape).Idx → EReal)
    (p : Fin a) (p' : Fin a') (e : Fin n)
    (hs : ∀ k : Fin n, s' (ix2 p' k) = s (ix2 p k)) (hx : ∀ k : Fin n, x' (ix2 p' k) = x (ix2 p k))
    (hw1 : w1' = w1) (hβ1 : β1' = β1) (hw2 : w2' = w2) (hβ2 : β2' = β2) :
    layerReluRow s' x' w1' β1' w2' β2' (ix2 p' e) = layerReluRow s x w1 β1 w2 β2 (ix2 p e) := by
  subst hw1 hβ1 hw2 hβ2
  exact layerReluRow_congr s' x' s x w1' w2' β1' β2' p' p e hs hx

theorem layerLinRow_block {a' : ℕ} (s x : (⟨2, ![a, n]⟩ : Shape).Idx → EReal) (w1 w2 : (⟨2, ![n, n]⟩ : Shape).Idx → EReal)
    (β1 β2 : (⟨2, ![1, n]⟩ : Shape).Idx → EReal) (s' x' : (⟨2, ![a', n]⟩ : Shape).Idx → EReal)
    (w1' w2' : (⟨2, ![n, n]⟩ : Shape).Idx → EReal) (β1' β2' : (⟨2, ![1, n]⟩ : Shape).Idx → EReal)
    (p : Fin a) (p' : Fin a') (e : Fin n)
    (hs : ∀ k : Fin n, s' (ix2 p' k) = s (ix2 p k)) (hx : ∀ k : Fin n, x' (ix2 p' k) = x (ix2 p k))
    (hw1 : w1' = w1) (hβ1 : β1' = β1) (hw2 : w2' = w2) (hβ2 : β2' = β2) :
    layerLinRow s' x' w1' β1' w2' β2' (ix2 p' e) = layerLinRow s x w1 β1 w2 β2 (ix2 p e) := by
  subst hw1 hβ1 hw2 hβ2
  exact layerLinRow_congr s' x' s x w1' w2' β1' β2' p' p e hs hx

/-! ## The kernel's vector spelling of the steps, on a block of rows -/

/-- A one-row block repeated down the rows and added to a block, then the maximum with a zero splat. -/
theorem vec_biasRelu (g : FVec Ideal ⟨2, ![a, n]⟩ .f32) (β : FVec Ideal ⟨2, ![1, n]⟩ .f32)
    (hβ : (⟨2, ![1, n]⟩ : Shape).ShapeCasts ⟨2, ![1, n]⟩) (hb : (⟨2, ![1, n]⟩ : Shape).Broadcasts ⟨2, ![a, n]⟩) :
    maximumf (addf g (broadcastTo ⟨2, ![a, n]⟩ (shapeCast ⟨2, ![1, n]⟩ β hβ) hb))
        (broadcast ⟨2, ![a, n]⟩ (Scalar.ofBits (F := Ideal) .f32 0x00000000#32))
      = biasReluRow g β := by
  rw [shapeCast_self]
  funext i
  obtain ⟨p, e, rfl⟩ : ∃ (p : Fin a) (e : Fin n), i = ix2 p e := ⟨i 0, i 1, eq_ix2 i⟩
  show max (g (ix2 p e) + broadcastTo ⟨2, ![a, n]⟩ β hb (ix2 p e)) (Ideal.ofBits .f32 0x00000000#32) = _
  rw [broadcastTo_1b_ab_apply]
  rfl

/-- The same without the maximum. -/
theorem vec_addRow (g : FVec Ideal ⟨2, ![a, n]⟩ .f32) (β : FVec Ideal ⟨2, ![1, n]⟩ .f32)
    (hβ : (⟨2, ![1, n]⟩ : Shape).ShapeCasts ⟨2, ![1, n]⟩) (hb : (⟨2, ![1, n]⟩ : Shape).Broadcasts ⟨2, ![a, n]⟩) :
    addf g (broadcastTo ⟨2, ![a, n]⟩ (shapeCast ⟨2, ![1, n]⟩ β hβ) hb) = addRowRow g β := by
  rw [shapeCast_self]
  funext i
  obtain ⟨p, e, rfl⟩ : ∃ (p : Fin a) (e : Fin n), i = ix2 p e := ⟨i 0, i 1, eq_ix2 i⟩
  show g (ix2 p e) + broadcastTo ⟨2, ![a, n]⟩ β hb (ix2 p e) = _
  rw [broadcastTo_1b_ab_apply]
  rfl

/-! ## The host's spelling of a whole layer -/

variable (wf : DotDims.WF ⟨2, ![a, n]⟩ ⟨2, ![n, n]⟩ ⟨2, ![a, n]⟩ [1] [0] [0] [1] [] [])

/-- The host's sum, general product, bias along the rows and maximum with a zero splat, twice: the layer that ends
    with the maximum. -/
theorem host_layerRelu (d : DotDims ⟨2, ![a, n]⟩ ⟨2, ![n, n]⟩ ⟨2, ![a, n]⟩) (hd : d = colsDims wf)
    (s x : FVec Ideal ⟨2, ![a, n]⟩ .f32) (w1 w2 : FVec Ideal ⟨2, ![n, n]⟩ .f32) (b1 b2 : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) :
    maximumf (addf (Host.dotGeneral d none
        (maximumf (addf (Host.dotGeneral d none (addf s x) w1)
            (broadcastInDim ⟨2, ![a, n]⟩ ![0, 1] h2 (broadcastInDim ⟨2, ![1, n]⟩ ![1] h1 b1)))
          (broadcastInDim ⟨2, ![a, n]⟩ ![] h0 (constant (F := Ideal) ⟨0, ![]⟩ .f32 0x00000000#32))) w2)
        (broadcastInDim ⟨2, ![a, n]⟩ ![0, 1] h2 (broadcastInDim ⟨2, ![1, n]⟩ ![1] h1 b2)))
      (broadcastInDim ⟨2, ![a, n]⟩ ![] h0 (constant (F := Ideal) ⟨0, ![]⟩ .f32 0x00000000#32))
      = layerRelu s x w1 b1 w2 b2 := by
  rw [dotGeneral_eq_prod wf d hd (addf s x) w1, host_biasRelu, dotGeneral_eq_prod wf d hd _ w2, host_biasRelu]
  rfl

/-- The same without the last maximum: the layer that ends with the second bias. -/
theorem host_layerLin (d : DotDims ⟨2, ![a, n]⟩ ⟨2, ![n, n]⟩ ⟨2, ![a, n]⟩) (hd : d = colsDims wf)
    (s x : FVec Ideal ⟨2, ![a, n]⟩ .f32) (w1 w2 : FVec Ideal ⟨2, ![n, n]⟩ .f32) (b1 b2 : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) :
    addf (Host.dotGeneral d none
        (maximumf (addf (Host.dotGeneral d none (addf s x) w1)
            (broadcastInDim ⟨2, ![a, n]⟩ ![0, 1] h2 (broadcastInDim ⟨2, ![1, n]⟩ ![1] h1 b1)))
          (broadcastInDim ⟨2, ![a, n]⟩ ![] h0 (constant (F := Ideal) ⟨0, ![]⟩ .f32 0x00000000#32))) w2)
        (broadcastInDim ⟨2, ![a, n]⟩ ![0, 1] h2 (broadcastInDim ⟨2, ![1, n]⟩ ![1] h1 b2))
      = layerLin s x w1 b1 w2 b2 := by
  rw [dotGeneral_eq_prod wf d hd (addf s x) w1, host_biasRelu, dotGeneral_eq_prod wf d hd _ w2, host_addRow]
  rfl

/-! ## The kernel's vector spelling of a whole layer, on a block of rows -/

/-- The matrix unit's product of the rounded-to-short-format operands into a zero accumulator, a one-row bias repeated
    down the rows, the maximum with a zero splat, and the same once more: on the extended reals, where a change of
    float format is the identity, the layer that ends with the maximum, of the already added block sx. -/
theorem block_layerRelu (d : DotDims ⟨2, ![a, n]⟩ ⟨2, ![n, n]⟩ ⟨2, ![a, n]⟩) (hd : d = colsDims wf)
    (sx : FVec Ideal ⟨2, ![a, n]⟩ .f32) (w1 w2 : FVec Ideal ⟨2, ![n, n]⟩ .f32) (β1 β2 : FVec Ideal ⟨2, ![1, n]⟩ .f32)
    (hβ : (⟨2, ![1, n]⟩ : Shape).ShapeCasts ⟨2, ![1, n]⟩) (hb : (⟨2, ![1, n]⟩ : Shape).Broadcasts ⟨2, ![a, n]⟩)
    (hlt : FTy.bf16.bits < FTy.f32.bits) :
    maximumf (addf (FloatOps.matmul d none
        (truncf .bf16 (maximumf (addf (FloatOps.matmul d none (truncf .bf16 sx hlt) (truncf .bf16 w1 hlt)
              (constant ⟨2, ![a, n]⟩ .f32 0x00000000#32))
            (broadcastTo ⟨2, ![a, n]⟩ (shapeCast ⟨2, ![1, n]⟩ β1 hβ) hb))
          (broadcast ⟨2, ![a, n]⟩ (Scalar.ofBits (F := Ideal) .f32 0x00000000#32))) hlt)
        (truncf .bf16 w2 hlt) (constant ⟨2, ![a, n]⟩ .f32 0x00000000#32))
        (broadcastTo ⟨2, ![a, n]⟩ (shapeCast ⟨2, ![1, n]⟩ β2 hβ) hb))
      (broadcast ⟨2, ![a, n]⟩ (Scalar.ofBits (F := Ideal) .f32 0x00000000#32))
      = biasReluRow (prod (biasReluRow (prod sx w1) β1) w2) β2 := by
  rw [matmul_eq_prod wf d hd (truncf .bf16 sx hlt) (truncf .bf16 w1 hlt), vec_biasRelu,
    matmul_eq_prod wf d hd _ (truncf .bf16 w2 hlt), vec_biasRelu]
  rfl

/-- The same without the last maximum. -/
theorem block_layerLin (d : DotDims ⟨2, ![a, n]⟩ ⟨2, ![n, n]⟩ ⟨2, ![a, n]⟩) (hd : d = colsDims wf)
    (sx : FVec Ideal ⟨2, ![a, n]⟩ .f32) (w1 w2 : FVec Ideal ⟨2, ![n, n]⟩ .f32) (β1 β2 : FVec Ideal ⟨2, ![1, n]⟩ .f32)
    (hβ : (⟨2, ![1, n]⟩ : Shape).ShapeCasts ⟨2, ![1, n]⟩) (hb : (⟨2, ![1, n]⟩ : Shape).Broadcasts ⟨2, ![a, n]⟩)
    (hlt : FTy.bf16.bits < FTy.f32.bits) :
    addf (FloatOps.matmul d none
        (truncf .bf16 (maximumf (addf (FloatOps.matmul d none (truncf .bf16 sx hlt) (truncf .bf16 w1 hlt)
              (constant ⟨2, ![a, n]⟩ .f32 0x00000000#32))
            (broadcastTo ⟨2, ![a, n]⟩ (shapeCast ⟨2, ![1, n]⟩ β1 hβ) hb))
          (broadcast ⟨2, ![a, n]⟩ (Scalar.ofBits (F := Ideal) .f32 0x00000000#32))) hlt)
        (truncf .bf16 w2 hlt) (constant ⟨2, ![a, n]⟩ .f32 0x00000000#32))
        (broadcastTo ⟨2, ![a, n]⟩ (shapeCast ⟨2, ![1, n]⟩ β2 hβ) hb)
      = addRowRow (prod (biasReluRow (prod sx w1) β1) w2) β2 := by
  rw [matmul_eq_prod wf d hd (truncf .bf16 sx hlt) (truncf .bf16 w1 hlt), vec_biasRelu,
    matmul_eq_prod wf d hd _ (truncf .bf16 w2 hlt), vec_addRow]
  rfl

end Cert.Gin

end
-- ==== Proof.KernelBlocks.lean ====
/-
  What one grid point of each of the three kernels stores, as a function of the blocks it loads.

  Each kernel loads a block of 2000 rows of the neighbour sums and of the node features, the two weight matrices and
  the two biases as one-row matrices, and stores one block of 2000 rows: the sum of the two row blocks, its
  product with the first weights plus the first bias, the maximum with zero, the product with the second weights plus
  the second bias, and — in the first two kernels — the maximum with zero again. On the extended reals the roundings
  to the short format in front of the matrix unit are the identity and its product into a zero accumulator is the
  plain sum of products, so the stored block is the layer of the loaded blocks.
-/
import proofs.«150781_j69114613727581_2_alg».proof.Proof.Gen.KernelIdeal.Skeleton
import proofs.«150781_j69114613727581_2_alg».proof.Proof.LibGinLayer

noncomputable section

namespace Cert.KernelIdeal.Blocks

open Idealize.ShloMosaic Idealize.ShloMosaic.ValueIdx Cert.KernelIdeal Cert.KernelIdeal.Gen Cert.Gin Cert.Layers Cert.ColsMatmul

/-- The dimension numbers of the kernels' products: axis 1 of the left operand against axis 0 of the right. -/
theorem dims_eq : dot_S2000x128_S128x128_S2000x128_1_0_0_1_n_n
    = colsDims (a := 2000) (n := 128) (b := 128) dot_S2000x128_S128x128_S2000x128_1_0_0_1_n_n_wf := rfl

/-- The first kernel's stored block is the layer ending with the maximum, of its loaded blocks. -/
theorem stored0 (v0 v2 : Vec Ideal S2000x128 .f32) (v5 : Vec Ideal S128x128 .f32) (v8 : Vec Ideal S1x128 .f32)
    (v15 : Vec Ideal S128x128 .f32) (v18 : Vec Ideal S1x128 .f32) :
    k0_pay1 (F := Ideal) v0 v2 v5 v8 v15 v18 = layerReluRow v0 v2 v5 v8 v15 v18 := by
  unfold k0_pay1
  refine (block_layerRelu dot_S2000x128_S128x128_S2000x128_1_0_0_1_n_n_wf _ dims_eq
    (addf (shapeCast S2000x128 v0 shapeCasts_S2000x128_S2000x128) v2) v5 v15 v8 v18
    shapeCasts_S1x128_S1x128 broadcasts_S1x128_S2000x128 bitsLt_bf16_f32).trans ?_
  rw [shapeCast_self]
  rfl

/-- The second kernel's stored block is the layer ending with the maximum, of its loaded blocks. -/
theorem stored1 (v0 v2 : Vec Ideal S2000x128 .f32) (v6 : Vec Ideal S128x128 .f32) (v9 : Vec Ideal S1x128 .f32)
    (v16 : Vec Ideal S128x128 .f32) (v19 : Vec Ideal S1x128 .f32) :
    k1_pay1 (F := Ideal) v0 v2 v6 v9 v16 v19 = layerReluRow v0 v2 v6 v9 v16 v19 := by
  unfold k1_pay1
  refine (block_layerRelu dot_S2000x128_S128x128_S2000x128_1_0_0_1_n_n_wf _ dims_eq
    (addf (shapeCast S2000x128 v0 shapeCasts_S2000x128_S2000x128) (shapeCast S2000x128 v2 shapeCasts_S2000x128_S2000x128))
    v6 v16 v9 v19 shapeCasts_S1x128_S1x128 broadcasts_S1x128_S2000x128 bitsLt_bf16_f32).trans ?_
  rw [shapeCast_self, shapeCast_self]
  rfl

/-- The third kernel's stored block is the layer ending with the second bias, of its loaded blocks. -/
theorem stored2 (v0 v2 : Vec Ideal S2000x128 .f32) (v6 : Vec Ideal S128x128 .f32) (v9 : Vec Ideal S1x128 .f32)
    (v16 : Vec Ideal S128x128 .f32) (v19 : Vec Ideal S1x128 .f32) :
    k2_pay1 (F := Ideal) v0 v2 v6 v9 v16 v19 = layerLinRow v0 v2 v6 v9 v16 v19 := by
  unfold k2_pay1
  refine (block_layerLin dot_S2000x128_S128x128_S2000x128_1_0_0_1_n_n_wf _ dims_eq
    (addf (shapeCast S2000x128 v0 shapeCasts_S2000x128_S2000x128) (shapeCast S2000x128 v2 shapeCasts_S2000x128_S2000x128))
    v6 v16 v9 v19 shapeCasts_S1x128_S1x128 broadcasts_S1x128_S2000x128 bitsLt_bf16_f32).trans ?_
  rw [shapeCast_self, shapeCast_self]
  rfl

end Cert.KernelIdeal.Blocks

end
-- ==== Proof.Region0.lean ====
/-
  The array the first kernel region leaves, as one function of the arrays it is entered with.

  The region runs its body at 50 grid points. Point t loads rows 2000·t … 2000·t + 1999 of the neighbour sums and of
  the node features, the whole of the two weight matrices and of the two one-row biases, and writes back rows
  2000·t … 2000·t + 1999 of the output. A row of the layer depends on the same row of the two matrices only, so what
  point t writes back is block t of the layer of the whole arrays; the 50 blocks cover the 100000 rows; hence the
  output array after the region is the layer that ends with the maximum of the entry arrays.
-/
import proofs.«150781_j69114613727581_2_alg».proof.Proof.Gen.KernelIdeal.Frame
import proofs.«150781_j69114613727581_2_alg».proof.Proof.KernelBlocks

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin

-- the buffers' contents when the region is entered: the parameter every statement below is made at
variable (V : (c : Dev nD) → (b : Ref sig .tc) → Buf (Elt Ideal) ((c : Thread nD τ).loc b))

theorem zero_offsets : (![0, 0] : Fin 2 → Nat) = fun _ => 0 := funext fun ax => by fin_cases ax <;> rfl

/-- The block index maps over the grid: the two row windows move with the output window along the rows, the weights
    and the biases stay at block (0, 0), and the output's row block stays below 50. -/
theorem block_indices : ∀ t : Fin cfg0.N,
      win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 49 ∧ win0_6.index t (1 : Fin 2) = 0 :=
  (by decide +kernel : ∀ t : Fin grid0.N, _)

/-- Every row block is some point's. -/
theorem block_onto : ∀ q : Fin 50, ∃ t : Fin cfg0.N, win0_6.index t = ![q.val, 0] :=
  (by decide +kernel : ∀ q : Fin 50, ∃ t : Fin grid0.N, win0_6.index t = ![q.val, 0])

/-- What point t writes back is block t of the layer of the arrays the region was entered with. -/
theorem flushed_eq (c : Dev nD) (t : Fin cfg0.N) :
    (dat0 (F := Ideal) V c).flushed 6 t = ((cfg0.win 6).blk t).view.read (Elt Ideal)
      (layerReluRow (a := 100000) (n := 128) (V c main_v13) (V c main_arg0) (V c main_arg3) (V c main_v14) (V c main_arg5) (V c main_v15)) := by
  show (cfg0.win 6).cut (grid0.coords t) ((dat0 V c).after 6 t) = _
  rw [after0_6]
  unfold out0_6
  rw [View.canon_unit_zero zero_offsets]
  simp only [View.ld_unit_zero (S := S2000x128) zero_offsets, View.ld_unit_zero (S := S128x128) zero_offsets,
    View.ld_unit_zero (S := S1x128) zero_offsets]
  rw [Blocks.stored0]
  obtain ⟨e00, e01, e10, e11, e20, e21, e30, e31, e40, e41, e50, e51, e6, e61⟩ := block_indices t
  funext j
  obtain ⟨p, e, rfl⟩ : ∃ (p : Fin 2000) (e : Fin 128), j = ix2 p e := ⟨j 0, j 1, eq_ix2 j⟩
  have hP : win0_6.index t (0 : Fin 2) * 2000 + p.val < 100000 := by have := p.isLt; omega
  have hemb : ((cfg0.win 6).blk t).view.emb (ix2 p e) = ix2 (⟨win0_6.index t (0 : Fin 2) * 2000 + p.val, hP⟩ : Fin 100000) e :=
    funext fun ax => Fin.ext (by
      match ax with
      | ⟨0, _⟩ => show win0_6.index t (0 : Fin 2) * 2000 + 1 * p.val = win0_6.index t (0 : Fin 2) * 2000 + p.val; omega
      | ⟨1, _⟩ => show win0_6.index t (1 : Fin 2) * 128 + 1 * e.val = e.val; omega)
  show layerReluRow (iblk0 V c 0 t) (iblk0 V c 1 t) (iblk0 V c 2 t) (iblk0 V c 3 t) (iblk0 V c 4 t) (iblk0 V c 5 t) (ix2 p e)
    = layerReluRow (V c main_v13) (V c main_arg0) (V c main_arg3) (V c main_v14) (V c main_arg5) (V c main_v15)
        (((cfg0.win 6).blk t).view.emb (ix2 p e))
  rw [hemb]
  refine layerReluRow_block (a := 100000) (n := 128) (a' := 2000)
    (V c main_v13) (V c main_arg0) (V c main_arg3) (V c main_arg5) (V c main_v14) (V c main_v15)
    (iblk0 V c 0 t) (iblk0 V c 1 t) (iblk0 V c 2 t) (iblk0 V c 4 t) (iblk0 V c 3 t) (iblk0 V c 5 t)
    ⟨win0_6.index t (0 : Fin 2) * 2000 + p.val, hP⟩ p e ?_ ?_ ?_ ?_ ?_ ?_
  · intro k
    show V c main_v13 (((cfg0.win 0).blk t).view.emb (ix2 p k)) = V c main_v13 (ix2 ⟨win0_6.index t (0 : Fin 2) * 2000 + p.val, hP⟩ k)
    refine congrArg (V c main_v13) (funext fun ax => Fin.ext ?_)
    match ax with
    | ⟨0, _⟩ => show win0_0.index t (0 : Fin 2) * 2000 + 1 * p.val = win0_6.index t (0 : Fin 2) * 2000 + p.val; omega
    | ⟨1, _⟩ => show win0_0.index t (1 : Fin 2) * 128 + 1 * k.val = k.val; omega
  · intro k
    show V c main_arg0 (((cfg0.win 1).blk t).view.emb (ix2 p k)) = V c main_arg0 (ix2 ⟨win0_6.index t (0 : Fin 2) * 2000 + p.val, hP⟩ k)
    refine congrArg (V c main_arg0) (funext fun ax => Fin.ext ?_)
    match ax with
    | ⟨0, _⟩ => show win0_1.index t (0 : Fin 2) * 2000 + 1 * p.val = win0_6.index t (0 : Fin 2) * 2000 + p.val; omega
    | ⟨1, _⟩ => show win0_1.index t (1 : Fin 2) * 128 + 1 * k.val = k.val; omega
  · funext y
    show V c main_arg3 (((cfg0.win 2).blk t).view.emb y) = V c main_arg3 y
    refine congrArg (V c main_arg3) (funext fun ax => Fin.ext ?_)
    match ax with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v14 (((cfg0.win 3).blk t).view.emb y) = V c main_v14 y
    refine congrArg (V c main_v14) (funext fun ax => Fin.ext ?_)
    match ax with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show V c main_arg5 (((cfg0.win 4).blk t).view.emb y) = V c main_arg5 y
    refine congrArg (V c main_arg5) (funext fun ax => Fin.ext ?_)
    match ax with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v15 (((cfg0.win 5).blk t).view.emb y) = V c main_v15 y
    refine congrArg (V c main_v15) (funext fun ax => Fin.ext ?_)
    match ax with
    | ⟨0, _⟩ => show win0_5.index t (0 : Fin 2) * 1 + 1 * (y 0).val = (y 0).val; omega
    | ⟨1, _⟩ => show win0_5.index t (1 : Fin 2) * 128 + 1 * (y 1).val = (y 1).val; omega

/-- An index of the output array is in point t's block iff each coordinate is in the block's range on its axis. -/
theorem mem_block (t : Fin cfg0.N) (i : S100000x128.Idx) :
    i ∈ ((cfg0.win 6).blk t).view.set ↔ ∀ ax : Fin 2, win0_6.index t ax * S2000x128.size ax ≤ (i ax).val
      ∧ (i ax).val < win0_6.index t ax * S2000x128.size ax + S2000x128.size ax := by
  show i ∈ ((View.whole main_v16).slice (win0_6.rect t)).set ↔ _
  rw [View.set_slice_whole, Rect.mem_set_unit]
  exact Iff.rfl

/-- Every index of the output array is in the block of the point its row falls to: row r is in block r / 2000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := block_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_block]
  intro ax
  match ax with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the region: the layer of the arrays the region was entered with. -/
theorem final (c : Dev nD) : (dat0 (F := Ideal) V c).arrAt 6 cfg0.N
    = layerReluRow (a := 100000) (n := 128) (V c main_v13) (V c main_arg0) (V c main_arg3) (V c main_v14) (V c main_arg5) (V c main_v15) :=
  (dat0 V c).arrAt_eq_of_cover 6 _ (fun t _ => flushed_eq V c t) cover

end Cert.KernelIdeal.Region0

end
-- ==== Proof.Region1.lean ====
/-
  The array the second kernel region leaves, as one function of the arrays it is entered with.

  The region runs its body at 50 grid points. Point t loads rows 2000·t … 2000·t + 1999 of the neighbour sums and of
  the node features, the whole of the two weight matrices and of the two one-row biases, and writes back rows
  2000·t … 2000·t + 1999 of the output. A row of the layer depends on the same row of the two matrices only, so what
  point t writes back is block t of the layer of the whole arrays; the 50 blocks cover the 100000 rows; hence the
  output array after the region is the layer that ends with the maximum of the entry arrays.
-/
import proofs.«150781_j69114613727581_2_alg».proof.Proof.Gen.KernelIdeal.Frame
import proofs.«150781_j69114613727581_2_alg».proof.Proof.KernelBlocks

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin

-- the buffers' contents when the region is entered: the parameter every statement below is made at
variable (V : (c : Dev nD) → (b : Ref sig .tc) → Buf (Elt Ideal) ((c : Thread nD τ).loc b))

theorem zero_offsets : (![0, 0] : Fin 2 → Nat) = fun _ => 0 := funext fun ax => by fin_cases ax <;> rfl

/-- The block index maps over the grid: the two row windows move with the output window along the rows, the weights
    and the biases stay at block (0, 0), and the output's row block stays below 50. -/
theorem block_indices : ∀ t : Fin cfg1.N,
      win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 49 ∧ win1_6.index t (1 : Fin 2) = 0 :=
  (by decide +kernel : ∀ t : Fin grid1.N, _)

/-- Every row block is some point's. -/
theorem block_onto : ∀ q : Fin 50, ∃ t : Fin cfg1.N, win1_6.index t = ![q.val, 0] :=
  (by decide +kernel : ∀ q : Fin 50, ∃ t : Fin grid1.N, win1_6.index t = ![q.val, 0])

/-- What point t writes back is block t of the layer of the arrays the region was entered with. -/
theorem flushed_eq (c : Dev nD) (t : Fin cfg1.N) :
    (dat1 (F := Ideal) V c).flushed 6 t = ((cfg1.win 6).blk t).view.read (Elt Ideal)
      (layerReluRow (a := 100000) (n := 128) (V c main_v26) (V c main_v16) (V c main_arg7) (V c main_v27) (V c main_arg9) (V c main_v28)) := by
  show (cfg1.win 6).cut (grid1.coords t) ((dat1 V c).after 6 t) = _
  rw [after1_6]
  unfold out1_6
  rw [View.canon_unit_zero zero_offsets]
  simp only [View.ld_unit_zero (S := S2000x128) zero_offsets, View.ld_unit_zero (S := S128x128) zero_offsets,
    View.ld_unit_zero (S := S1x128) zero_offsets]
  rw [Blocks.stored1]
  obtain ⟨e00, e01, e10, e11, e20, e21, e30, e31, e40, e41, e50, e51, e6, e61⟩ := block_indices t
  funext j
  obtain ⟨p, e, rfl⟩ : ∃ (p : Fin 2000) (e : Fin 128), j = ix2 p e := ⟨j 0, j 1, eq_ix2 j⟩
  have hP : win1_6.index t (0 : Fin 2) * 2000 + p.val < 100000 := by have := p.isLt; omega
  have hemb : ((cfg1.win 6).blk t).view.emb (ix2 p e) = ix2 (⟨win1_6.index t (0 : Fin 2) * 2000 + p.val, hP⟩ : Fin 100000) e :=
    funext fun ax => Fin.ext (by
      match ax with
      | ⟨0, _⟩ => show win1_6.index t (0 : Fin 2) * 2000 + 1 * p.val = win1_6.index t (0 : Fin 2) * 2000 + p.val; omega
      | ⟨1, _⟩ => show win1_6.index t (1 : Fin 2) * 128 + 1 * e.val = e.val; omega)
  show layerReluRow (iblk1 V c 0 t) (iblk1 V c 1 t) (iblk1 V c 2 t) (iblk1 V c 3 t) (iblk1 V c 4 t) (iblk1 V c 5 t) (ix2 p e)
    = layerReluRow (V c main_v26) (V c main_v16) (V c main_arg7) (V c main_v27) (V c main_arg9) (V c main_v28)
        (((cfg1.win 6).blk t).view.emb (ix2 p e))
  rw [hemb]
  refine layerReluRow_block (a := 100000) (n := 128) (a' := 2000)
    (V c main_v26) (V c main_v16) (V c main_arg7) (V c main_arg9) (V c main_v27) (V c main_v28)
    (iblk1 V c 0 t) (iblk1 V c 1 t) (iblk1 V c 2 t) (iblk1 V c 4 t) (iblk1 V c 3 t) (iblk1 V c 5 t)
    ⟨win1_6.index t (0 : Fin 2) * 2000 + p.val, hP⟩ p e ?_ ?_ ?_ ?_ ?_ ?_
  · intro k
    show V c main_v26 (((cfg1.win 0).blk t).view.emb (ix2 p k)) = V c main_v26 (ix2 ⟨win1_6.index t (0 : Fin 2) * 2000 + p.val, hP⟩ k)
    refine congrArg (V c main_v26) (funext fun ax => Fin.ext ?_)
    match ax with
    | ⟨0, _⟩ => show win1_0.index t (0 : Fin 2) * 2000 + 1 * p.val = win1_6.index t (0 : Fin 2) * 2000 + p.val; omega
    | ⟨1, _⟩ => show win1_0.index t (1 : Fin 2) * 128 + 1 * k.val = k.val; omega
  · intro k
    show V c main_v16 (((cfg1.win 1).blk t).view.emb (ix2 p k)) = V c main_v16 (ix2 ⟨win1_6.index t (0 : Fin 2) * 2000 + p.val, hP⟩ k)
    refine congrArg (V c main_v16) (funext fun ax => Fin.ext ?_)
    match ax with
    | ⟨0, _⟩ => show win1_1.index t (0 : Fin 2) * 2000 + 1 * p.val = win1_6.index t (0 : Fin 2) * 2000 + p.val; omega
    | ⟨1, _⟩ => show win1_1.index t (1 : Fin 2) * 128 + 1 * k.val = k.val; omega
  · funext y
    show V c main_arg7 (((cfg1.win 2).blk t).view.emb y) = V c main_arg7 y
    refine congrArg (V c main_arg7) (funext fun ax => Fin.ext ?_)
    match ax with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v27 (((cfg1.win 3).blk t).view.emb y) = V c main_v27 y
    refine congrArg (V c main_v27) (funext fun ax => Fin.ext ?_)
    match ax with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_arg9 (((cfg1.win 4).blk t).view.emb y) = V c main_arg9 y
    refine congrArg (V c main_arg9) (funext fun ax => Fin.ext ?_)
    match ax with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v28 (((cfg1.win 5).blk t).view.emb y) = V c main_v28 y
    refine congrArg (V c main_v28) (funext fun ax => Fin.ext ?_)
    match ax with
    | ⟨0, _⟩ => show win1_5.index t (0 : Fin 2) * 1 + 1 * (y 0).val = (y 0).val; omega
    | ⟨1, _⟩ => show win1_5.index t (1 : Fin 2) * 128 + 1 * (y 1).val = (y 1).val; omega

/-- An index of the output array is in point t's block iff each coordinate is in the block's range on its axis. -/
theorem mem_block (t : Fin cfg1.N) (i : S100000x128.Idx) :
    i ∈ ((cfg1.win 6).blk t).view.set ↔ ∀ ax : Fin 2, win1_6.index t ax * S2000x128.size ax ≤ (i ax).val
      ∧ (i ax).val < win1_6.index t ax * S2000x128.size ax + S2000x128.size ax := by
  show i ∈ ((View.whole main_v29).slice (win1_6.rect t)).set ↔ _
  rw [View.set_slice_whole, Rect.mem_set_unit]
  exact Iff.rfl

/-- Every index of the output array is in the block of the point its row falls to: row r is in block r / 2000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := block_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_block]
  intro ax
  match ax with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The output array after the region: the layer of the arrays the region was entered with. -/
theorem final (c : Dev nD) : (dat1 (F := Ideal) V c).arrAt 6 cfg1.N
    = layerReluRow (a := 100000) (n := 128) (V c main_v26) (V c main_v16) (V c main_arg7) (V c main_v27) (V c main_arg9) (V c main_v28) :=
  (dat1 V c).arrAt_eq_of_cover 6 _ (fun t _ => flushed_eq V c t) cover

end Cert.KernelIdeal.Region1

end
-- ==== Proof.Region2.lean ====
/-
  The array the third kernel region leaves, as one function of the arrays it is entered with.

  The region runs its body at 50 grid points. Point t loads rows 2000·t … 2000·t + 1999 of the neighbour sums and of
  the node features, the whole of the two weight matrices and of the two one-row biases, and writes back rows
  2000·t … 2000·t + 1999 of the output. A row of the layer depends on the same row of the two matrices only, so what
  point t writes back is block t of the layer of the whole arrays; the 50 blocks cover the 100000 rows; hence the
  output array after the region is the layer that ends with the second bias of the entry arrays.
-/
import proofs.«150781_j69114613727581_2_alg».proof.Proof.Gen.KernelIdeal.Frame
import proofs.«150781_j69114613727581_2_alg».proof.Proof.KernelBlocks

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin

-- the buffers' contents when the region is entered: the parameter every statement below is made at
variable (V : (c : Dev nD) → (b : Ref sig .tc) → Buf (Elt Ideal) ((c : Thread nD τ).loc b))

theorem zero_offsets : (![0, 0] : Fin 2 → Nat) = fun _ => 0 := funext fun ax => by fin_cases ax <;> rfl

/-- The block index maps over the grid: the two row windows move with the output window along the rows, the weights
    and the biases stay at block (0, 0), and the output's row block stays below 50. -/
theorem block_indices : ∀ t : Fin cfg2.N,
      win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 49 ∧ win2_6.index t (1 : Fin 2) = 0 :=
  (by decide +kernel : ∀ t : Fin grid2.N, _)

/-- Every row block is some point's. -/
theorem block_onto : ∀ q : Fin 50, ∃ t : Fin cfg2.N, win2_6.index t = ![q.val, 0] :=
  (by decide +kernel : ∀ q : Fin 50, ∃ t : Fin grid2.N, win2_6.index t = ![q.val, 0])

/-- What point t writes back is block t of the layer of the arrays the region was entered with. -/
theorem flushed_eq (c : Dev nD) (t : Fin cfg2.N) :
    (dat2 (F := Ideal) V c).flushed 6 t = ((cfg2.win 6).blk t).view.read (Elt Ideal)
      (layerLinRow (a := 100000) (n := 128) (V c main_v39) (V c main_v29) (V c main_arg11) (V c main_v40) (V c main_arg13) (V c main_v41)) := by
  show (cfg2.win 6).cut (grid2.coords t) ((dat2 V c).after 6 t) = _
  rw [after2_6]
  unfold out2_6
  rw [View.canon_unit_zero zero_offsets]
  simp only [View.ld_unit_zero (S := S2000x128) zero_offsets, View.ld_unit_zero (S := S128x128) zero_offsets,
    View.ld_unit_zero (S := S1x128) zero_offsets]
  rw [Blocks.stored2]
  obtain ⟨e00, e01, e10, e11, e20, e21, e30, e31, e40, e41, e50, e51, e6, e61⟩ := block_indices t
  funext j
  obtain ⟨p, e, rfl⟩ : ∃ (p : Fin 2000) (e : Fin 128), j = ix2 p e := ⟨j 0, j 1, eq_ix2 j⟩
  have hP : win2_6.index t (0 : Fin 2) * 2000 + p.val < 100000 := by have := p.isLt; omega
  have hemb : ((cfg2.win 6).blk t).view.emb (ix2 p e) = ix2 (⟨win2_6.index t (0 : Fin 2) * 2000 + p.val, hP⟩ : Fin 100000) e :=
    funext fun ax => Fin.ext (by
      match ax with
      | ⟨0, _⟩ => show win2_6.index t (0 : Fin 2) * 2000 + 1 * p.val = win2_6.index t (0 : Fin 2) * 2000 + p.val; omega
      | ⟨1, _⟩ => show win2_6.index t (1 : Fin 2) * 128 + 1 * e.val = e.val; omega)
  show layerLinRow (iblk2 V c 0 t) (iblk2 V c 1 t) (iblk2 V c 2 t) (iblk2 V c 3 t) (iblk2 V c 4 t) (iblk2 V c 5 t) (ix2 p e)
    = layerLinRow (V c main_v39) (V c main_v29) (V c main_arg11) (V c main_v40) (V c main_arg13) (V c main_v41)
        (((cfg2.win 6).blk t).view.emb (ix2 p e))
  rw [hemb]
  refine layerLinRow_block (a := 100000) (n := 128) (a' := 2000)
    (V c main_v39) (V c main_v29) (V c main_arg11) (V c main_arg13) (V c main_v40) (V c main_v41)
    (iblk2 V c 0 t) (iblk2 V c 1 t) (iblk2 V c 2 t) (iblk2 V c 4 t) (iblk2 V c 3 t) (iblk2 V c 5 t)
    ⟨win2_6.index t (0 : Fin 2) * 2000 + p.val, hP⟩ p e ?_ ?_ ?_ ?_ ?_ ?_
  · intro k
    show V c main_v39 (((cfg2.win 0).blk t).view.emb (ix2 p k)) = V c main_v39 (ix2 ⟨win2_6.index t (0 : Fin 2) * 2000 + p.val, hP⟩ k)
    refine congrArg (V c main_v39) (funext fun ax => Fin.ext ?_)
    match ax with
    | ⟨0, _⟩ => show win2_0.index t (0 : Fin 2) * 2000 + 1 * p.val = win2_6.index t (0 : Fin 2) * 2000 + p.val; omega
    | ⟨1, _⟩ => show win2_0.index t (1 : Fin 2) * 128 + 1 * k.val = k.val; omega
  · intro k
    show V c main_v29 (((cfg2.win 1).blk t).view.emb (ix2 p k)) = V c main_v29 (ix2 ⟨win2_6.index t (0 : Fin 2) * 2000 + p.val, hP⟩ k)
    refine congrArg (V c main_v29) (funext fun ax => Fin.ext ?_)
    match ax with
    | ⟨0, _⟩ => show win2_1.index t (0 : Fin 2) * 2000 + 1 * p.val = win2_6.index t (0 : Fin 2) * 2000 + p.val; omega
    | ⟨1, _⟩ => show win2_1.index t (1 : Fin 2) * 128 + 1 * k.val = k.val; omega
  · funext y
    show V c main_arg11 (((cfg2.win 2).blk t).view.emb y) = V c main_arg11 y
    refine congrArg (V c main_arg11) (funext fun ax => Fin.ext ?_)
    match ax with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v40 (((cfg2.win 3).blk t).view.emb y) = V c main_v40 y
    refine congrArg (V c main_v40) (funext fun ax => Fin.ext ?_)
    match ax with
    | ⟨0, _⟩ => show win2_3.index t (0 : Fin 2) * 1 + 1 * (y 0).val = (y 0).val; omega
    | ⟨1, _⟩ => show win2_3.index t (1 : Fin 2) * 128 + 1 * (y 1).val = (y 1).val; omega
  · funext y
    show V c main_arg13 (((cfg2.win 4).blk t).view.emb y) = V c main_arg13 y
    refine congrArg (V c main_arg13) (funext fun ax => Fin.ext ?_)
    match ax with
    | ⟨0, _⟩ => show win2_4.index t (0 : Fin 2) * 128 + 1 * (y 0).val = (y 0).val; omega
    | ⟨1, _⟩ => show win2_4.index t (1 : Fin 2) * 128 + 1 * (y 1).val = (y 1).val; omega
  · funext y
    show V c main_v41 (((cfg2.win 5).blk t).view.emb y) = V c main_v41 y
    refine congrArg (V c main_v41) (funext fun ax => Fin.ext ?_)
    match ax with
    | ⟨0, _⟩ => show win2_5.index t (0 : Fin 2) * 1 + 1 * (y 0).val = (y 0).val; omega
    | ⟨1, _⟩ => show win2_5.index t (1 : Fin 2) * 128 + 1 * (y 1).val = (y 1).val; omega

/-- An index of the output array is in point t's block iff each coordinate is in the block's range on its axis. -/
theorem mem_block (t : Fin cfg2.N) (i : S100000x128.Idx) :
    i ∈ ((cfg2.win 6).blk t).view.set ↔ ∀ ax : Fin 2, win2_6.index t ax * S2000x128.size ax ≤ (i ax).val
      ∧ (i ax).val < win2_6.index t ax * S2000x128.size ax + S2000x128.size ax := by
  show i ∈ ((View.whole main_v42).slice (win2_6.rect t)).set ↔ _
  rw [View.set_slice_whole, Rect.mem_set_unit]
  exact Iff.rfl

/-- Every index of the output array is in the block of the point its row falls to: row r is in block r / 2000. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := block_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_block]
  intro ax
  match ax with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The output array after the region: the layer of the arrays the region was entered with. -/
theorem final (c : Dev nD) : (dat2 (F := Ideal) V c).arrAt 6 cfg2.N
    = layerLinRow (a := 100000) (n := 128) (V c main_v39) (V c main_v29) (V c main_arg11) (V c main_v40) (V c main_arg13) (V c main_v41) :=
  (dat2 V c).arrAt_eq_of_cover 6 _ (fun t _ => flushed_eq V c t) cover

end Cert.KernelIdeal.Region2

end
-- ==== Proof.HostChains.lean ====
/-
  The host operations both programs apply around the dense layers, each chain named as one function.

  * `sources e`, `targets e`: rows 0 and 1 of the 2 × 1600000 edge list, as vectors.
  * `neighbourSum h e`: for every node the sum of the rows h(src) over the edges src → dst that end at it: the rows
    of h gathered at the source indices (a negative index counted from the end, as array indexing does) and
    scatter-added at the target indices into a zero matrix.
  * `meanPool h g`: the rows of h summed per graph (g names each node's graph, 64 graphs), divided by the number of
    nodes of the graph or by 1 if it has none, and laid out flat.
  * `biasRow b`: a bias vector seen as a one-row matrix.
  Nothing here is ever opened: the kernel program and the reference apply these same chains, and the proof only needs
  that equal inputs give equal outputs.
-/
import proofs.«150781_j69114613727581_2_alg».proof.Proof.Gen.KernelIdeal

noncomputable section

namespace Cert.KernelIdeal.Host

open Idealize.ShloMosaic Cert.KernelIdeal Cert.KernelIdeal.Gen

variable {F : FTy → Type} [FloatOps F]

/-- The source node of every edge. -/
def sources (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The target node of every edge. -/
def targets (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The sum, for every node, of the rows of h at the sources of the edges that end at it. -/
def neighbourSum (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (targets e))
    (Host.gather gather_S100000x128_S1600000x1_S1600000x128_1_0_n_n_0_1_1128 h
      (broadcastInDim S1600000x1 ![0] bcast_S1600000_S1600000x1_0
        (select (cmpi .slt (sources e) (broadcastInDim S1600000 ![] bcast_S_S1600000 (constantI S_ 32 0#32)))
          (addi (sources e) (broadcastInDim S1600000 ![] bcast_S_S1600000 (constantI S_ 32 100000#32)))
          (sources e))))

/-- The mean of the rows of h over each graph's nodes (an empty graph's sum divided by 1), laid out flat. -/
def meanPool (h : (⟨S100000x128, .f32⟩ : BufTy).Contents (Elt F)) (g : (⟨S100000, .i32⟩ : BufTy).Contents (Elt F)) :
    (⟨S8192, .f32⟩ : BufTy).Contents (Elt F) :=
  shapeCast _ (Host.divf
    (Host.scatterAdd scatter_S64x128_S100000x1_S100000x128_1_0_0_1
      (broadcastInDim S64x128 ![] bcast_S_S64x128 (constant S_ .f32 0x00000000#32))
      (broadcastInDim S100000x1 ![0] bcast_S100000_S100000x1_0 g) h)
    (broadcastInDim S64x128 ![0, 1] bcast_S64x1_S64x128_0_1 (broadcastInDim S64x1 ![0] bcast_S64_S64x1_0
      (maximumf
        (Host.scatterAdd scatter_S64_S100000x1_S100000_n_0_0_1
          (broadcastInDim S64 ![] bcast_S_S64 (constant S_ .f32 0x00000000#32))
          (broadcastInDim S100000x1 ![0] bcast_S100000_S100000x1_0 g)
          (broadcastInDim S100000 ![] bcast_S_S100000 (constant S_ .f32 0x3F800000#32)))
        (broadcastInDim S64 ![] bcast_S_S64 (constant S_ .f32 0x3F800000#32))))))
    shapeCasts_S64x128_S8192

/-- A bias vector seen as a one-row matrix. -/
def biasRow (b : (⟨S128, .f32⟩ : BufTy).Contents (Elt F)) : (⟨S1x128, .f32⟩ : BufTy).Contents (Elt F) :=
  shapeCast _ b shapeCasts_S128_S1x128

end Cert.KernelIdeal.Host

end
-- ==== Proof.Network.lean ====
/-
  The network both programs compute, as one function of the fifteen argument arrays.

  A graph-convolution step takes the node features h and the edges e, forms the neighbour sums of h along e and
  applies the layer to them and h. The network is three steps — the first two ending with the maximum with zero, the
  third with the second bias — followed by the mean pool over each graph's nodes.
-/
import proofs.«150781_j69114613727581_2_alg».proof.Proof.LibGinLayer
import proofs.«150781_j69114613727581_2_alg».proof.Proof.HostChains

noncomputable section

namespace Cert.Gin

open Idealize.ShloMosaic Cert.KernelIdeal Cert.KernelIdeal.Gen Cert.KernelIdeal.Host

/-- A graph-convolution step ending with the maximum with zero. -/
def convRelu (h : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    (⟨S100000x128, .f32⟩ : BufTy).Contents (Elt Ideal) :=
  layerRelu (a := 100000) (n := 128) (neighbourSum h e) h w1 b1 w2 b2

/-- A graph-convolution step ending with the second bias. -/
def convLin (h : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    (⟨S100000x128, .f32⟩ : BufTy).Contents (Elt Ideal) :=
  layerLin (a := 100000) (n := 128) (neighbourSum h e) h w1 b1 w2 b2

/-- Three steps and the mean pool: the flat array of 64 × 128 pooled features. -/
def network (x : (⟨S100000x128, .f32⟩ : BufTy).Contents (Elt Ideal)) (e : (⟨S2x1600000, .i32⟩ : BufTy).Contents (Elt Ideal))
    (g : (⟨S100000, .i32⟩ : BufTy).Contents (Elt Ideal))
    (w11 : (⟨S128x128, .f32⟩ : BufTy).Contents (Elt Ideal)) (b11 : (⟨S128, .f32⟩ : BufTy).Contents (Elt Ideal))
    (w21 : (⟨S128x128, .f32⟩ : BufTy).Contents (Elt Ideal)) (b21 : (⟨S128, .f32⟩ : BufTy).Contents (Elt Ideal))
    (w12 : (⟨S128x128, .f32⟩ : BufTy).Contents (Elt Ideal)) (b12 : (⟨S128, .f32⟩ : BufTy).Contents (Elt Ideal))
    (w22 : (⟨S128x128, .f32⟩ : BufTy).Contents (Elt Ideal)) (b22 : (⟨S128, .f32⟩ : BufTy).Contents (Elt Ideal))
    (w13 : (⟨S128x128, .f32⟩ : BufTy).Contents (Elt Ideal)) (b13 : (⟨S128, .f32⟩ : BufTy).Contents (Elt Ideal))
    (w23 : (⟨S128x128, .f32⟩ : BufTy).Contents (Elt Ideal)) (b23 : (⟨S128, .f32⟩ : BufTy).Contents (Elt Ideal)) :
    (⟨S8192, .f32⟩ : BufTy).Contents (Elt Ideal) :=
  meanPool (convLin (convRelu (convRelu x e w11 b11 w21 b21) e w12 b12 w22 b22) e w13 b13 w23 b23) g

/-- A step whose biases are given as one-row matrices made of vectors is the step of the vectors. -/
theorem convRelu_rows (h : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    layerReluRow (a := 100000) (n := 128) (neighbourSum h e) h w1 (biasRow b1) w2 (biasRow b2) = convRelu h e w1 b1 w2 b2 :=
  layerReluRow_of_vectors (a := 100000) (n := 128) (neighbourSum h e) h w1 w2 b1 b2 shapeCasts_S128_S1x128

theorem convLin_rows (h : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    layerLinRow (a := 100000) (n := 128) (neighbourSum h e) h w1 (biasRow b1) w2 (biasRow b2) = convLin h e w1 b1 w2 b2 :=
  layerLinRow_of_vectors (a := 100000) (n := 128) (neighbourSum h e) h w1 w2 b1 b2 shapeCasts_S128_S1x128

end Cert.Gin

end
-- ==== Proof.KernelFold.lean ====
/-
  What the idealized kernel program's result buffer holds at the end, as a function of the argument arrays.

  The program's buffers are followed from the launch through its four stretches of host operations and three kernel
  regions. A stretch leaves in each buffer it writes its operations' value of the buffers it reads and leaves every
  other buffer alone; a region replaces its output array by the layer of its six input arrays and leaves every buffer
  that is none of its arrays alone. Reading the boundaries in order: the first layer's output is the layer (ending
  with the maximum) of the neighbour sums of the node features and the node features; the second layer's is the same
  of the first's output; the third's, the layer ending with the second bias, of the second's output; and the result
  is the mean pool of the third layer's output.
-/
import proofs.«150781_j69114613727581_2_alg».proof.Proof.Gen.KernelIdeal.Frame
import proofs.«150781_j69114613727581_2_alg».proof.Proof.Region0
import proofs.«150781_j69114613727581_2_alg».proof.Proof.Region1
import proofs.«150781_j69114613727581_2_alg».proof.Proof.Region2
import proofs.«150781_j69114613727581_2_alg».proof.Proof.HostChains
import proofs.«150781_j69114613727581_2_alg».proof.Proof.Network

set_option maxRecDepth 16384

noncomputable section

namespace Cert.KernelIdeal.Fold

open Idealize.ShloMosaic Idealize.ShloMosaic.TcCoe Idealize.SL.Sem
open Cert.KernelIdeal Cert.KernelIdeal.Gen Cert.KernelIdeal.Host Cert.Gin

variable (m : (ℓ : Loc nD τ sig) → Buf (Elt Ideal) ℓ) (ρ : Dev nD → PrngReg) (c : Dev nD)

/-- The first layer's output on core c: the layer of the neighbour sums of the node features and the node features. -/
def out1 : (⟨S100000x128, .f32⟩ : BufTy).Contents (Elt Ideal) :=
  layerReluRow (a := 100000) (n := 128) (neighbourSum (m ((c : Thread nD τ).loc main_arg0)) (m ((c : Thread nD τ).loc main_arg1))) (m ((c : Thread nD τ).loc main_arg0)) (m ((c : Thread nD τ).loc main_arg3)) (biasRow (m ((c : Thread nD τ).loc main_arg4))) (m ((c : Thread nD τ).loc main_arg5)) (biasRow (m ((c : Thread nD τ).loc main_arg6)))

/-- The second layer's output: the same of the first layer's output, with the second layer's weights. -/
def out2 : (⟨S100000x128, .f32⟩ : BufTy).Contents (Elt Ideal) :=
  layerReluRow (a := 100000) (n := 128) (neighbourSum (out1 m c) (m ((c : Thread nD τ).loc main_arg1))) (out1 m c) (m ((c : Thread nD τ).loc main_arg7)) (biasRow (m ((c : Thread nD τ).loc main_arg8))) (m ((c : Thread nD τ).loc main_arg9)) (biasRow (m ((c : Thread nD τ).loc main_arg10)))

/-- The third layer's output: the layer ending with the second bias, of the second layer's output. -/
def out3 : (⟨S100000x128, .f32⟩ : BufTy).Contents (Elt Ideal) :=
  layerLinRow (a := 100000) (n := 128) (neighbourSum (out2 m c) (m ((c : Thread nD τ).loc main_arg1))) (out2 m c) (m ((c : Thread nD τ).loc main_arg11)) (biasRow (m ((c : Thread nD τ).loc main_arg12))) (m ((c : Thread nD τ).loc main_arg13)) (biasRow (m ((c : Thread nD τ).loc main_arg14)))

/-! ## After the first stretch of host operations: the first neighbour sums, the first two biases as rows, the edges -/

theorem W1_v13 : W1 m ρ c (Proc.devRef .tc main_v13) = neighbourSum (m ((c : Thread nD τ).loc main_arg0)) (m ((c : Thread nD τ).loc main_arg1)) := by
  show StableHlo.after hostOps0 (W0 m ρ c) (Proc.devRef .tc main_v13) = _
  after_results_simp
  rfl
theorem W1_v14 : W1 m ρ c (Proc.devRef .tc main_v14) = biasRow (m ((c : Thread nD τ).loc main_arg4)) := by
  show StableHlo.after hostOps0 (W0 m ρ c) (Proc.devRef .tc main_v14) = _
  after_results
  rfl
theorem W1_v15 : W1 m ρ c (Proc.devRef .tc main_v15) = biasRow (m ((c : Thread nD τ).loc main_arg6)) := by
  show StableHlo.after hostOps0 (W0 m ρ c) (Proc.devRef .tc main_v15) = _
  after_results
  rfl
theorem W1_v1 : W1 m ρ c (Proc.devRef .tc main_v1) = sources (F := Ideal) (m ((c : Thread nD τ).loc main_arg1)) := by
  show StableHlo.after hostOps0 (W0 m ρ c) (Proc.devRef .tc main_v1) = _
  after_results
  rfl
theorem W1_v3 : W1 m ρ c (Proc.devRef .tc main_v3) = targets (F := Ideal) (m ((c : Thread nD τ).loc main_arg1)) := by
  show StableHlo.after hostOps0 (W0 m ρ c) (Proc.devRef .tc main_v3) = _
  after_results
  rfl
theorem W1_arg0 : W1 m ρ c (Proc.devRef .tc main_arg0) = m ((c : Thread nD τ).loc main_arg0) := by
  show StableHlo.after hostOps0 (W0 m ρ c) (Proc.devRef .tc main_arg0) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results
theorem W1_arg9 : W1 m ρ c (Proc.devRef .tc main_arg9) = m ((c : Thread nD τ).loc main_arg9) := by
  show StableHlo.after hostOps0 (W0 m ρ c) (Proc.devRef .tc main_arg9) = _
  after_results
theorem W1_arg10 : W1 m ρ c (Proc.devRef .tc main_arg10) = m ((c : Thread nD τ).loc main_arg10) := by
  show StableHlo.after hostOps0 (W0 m ρ c) (Proc.devRef .tc main_arg10) = _
  after_results
theorem W1_arg11 : W1 m ρ c (Proc.devRef .tc main_arg11) = m ((c : Thread nD τ).loc main_arg11) := by
  show StableHlo.after hostOps0 (W0 m ρ c) (Proc.devRef .tc main_arg11) = _
  after_results
theorem W1_arg12 : W1 m ρ c (Proc.devRef .tc main_arg12) = m ((c : Thread nD τ).loc main_arg12) := by
  show StableHlo.after hostOps0 (W0 m ρ c) (Proc.devRef .tc main_arg12) = _
  after_results
theorem W1_arg13 : W1 m ρ c (Proc.devRef .tc main_arg13) = m ((c : Thread nD τ).loc main_arg13) := by
  show StableHlo.after hostOps0 (W0 m ρ c) (Proc.devRef .tc main_arg13) = _
  after_results
theorem W1_arg14 : W1 m ρ c (Proc.devRef .tc main_arg14) = m ((c : Thread nD τ).loc main_arg14) := by
  show StableHlo.after hostOps0 (W0 m ρ c) (Proc.devRef .tc main_arg14) = _
  after_results

/-! ## After the first region: the first layer's output -/

theorem W2_v16 : W2 m ρ c (Proc.devRef .tc main_v16) = out1 m c := by
  refine (W2_arr m ρ c 6).trans ((Region0.final (V1 m ρ) c).trans ?_)
  show layerReluRow (a := 100000) (n := 128) (W1 m ρ c (Proc.devRef .tc main_v13)) (W1 m ρ c (Proc.devRef .tc main_arg0)) (W1 m ρ c (Proc.devRef .tc main_arg3)) (W1 m ρ c (Proc.devRef .tc main_v14)) (W1 m ρ c (Proc.devRef .tc main_arg5)) (W1 m ρ c (Proc.devRef .tc main_v15)) = _
  rw [W1_v13 m ρ c, W1_arg0 m ρ c, W1_arg3 m ρ c, W1_v14 m ρ c, W1_arg5 m ρ c, W1_v15 m ρ c]
  rfl
theorem W2_v1 : W2 m ρ c (Proc.devRef .tc main_v1) = sources (F := Ideal) (m ((c : Thread nD τ).loc main_arg1)) :=
  (W2_of_ne m ρ c main_v1 (by decide)).trans (W1_v1 m ρ c)
theorem W2_v3 : W2 m ρ c (Proc.devRef .tc main_v3) = targets (F := Ideal) (m ((c : Thread nD τ).loc main_arg1)) :=
  (W2_of_ne m ρ c main_v3 (by decide)).trans (W1_v3 m ρ c)
theorem W2_arg2 : W2 m ρ c (Proc.devRef .tc main_arg2) = m ((c : Thread nD τ).loc main_arg2) :=
  (W2_of_ne m ρ c main_arg2 (by decide)).trans (W1_arg2 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_arg13 : W2 m ρ c (Proc.devRef .tc main_arg13) = m ((c : Thread nD τ).loc main_arg13) :=
  (W2_of_ne m ρ c main_arg13 (by decide)).trans (W1_arg13 m ρ c)
theorem W2_arg14 : W2 m ρ c (Proc.devRef .tc main_arg14) = m ((c : Thread nD τ).loc main_arg14) :=
  (W2_of_ne m ρ c main_arg14 (by decide)).trans (W1_arg14 m ρ c)

/-! ## After the second stretch: the second neighbour sums and biases -/

theorem W3_v26 : W3 m ρ c (Proc.devRef .tc main_v26) = neighbourSum (out1 m c) (m ((c : Thread nD τ).loc main_arg1)) := by
  show StableHlo.after hostOps1 (W2 m ρ c) (Proc.devRef .tc main_v26) = _
  after_results
  rw [W2_v16 m ρ c, W2_v1 m ρ c, W2_v3 m ρ c]
  rfl
theorem W3_v27 : W3 m ρ c (Proc.devRef .tc main_v27) = biasRow (m ((c : Thread nD τ).loc main_arg8)) := by
  show StableHlo.after hostOps1 (W2 m ρ c) (Proc.devRef .tc main_v27) = _
  after_results
  rw [W2_arg8 m ρ c]
  rfl
theorem W3_v28 : W3 m ρ c (Proc.devRef .tc main_v28) = biasRow (m ((c : Thread nD τ).loc main_arg10)) := by
  show StableHlo.after hostOps1 (W2 m ρ c) (Proc.devRef .tc main_v28) = _
  after_results
  rw [W2_arg10 m ρ c]
  rfl
theorem W3_v16 : W3 m ρ c (Proc.devRef .tc main_v16) = out1 m c := by
  show StableHlo.after hostOps1 (W2 m ρ c) (Proc.devRef .tc main_v16) = _
  after_results
  exact W2_v16 m ρ c
theorem W3_v1 : W3 m ρ c (Proc.devRef .tc main_v1) = sources (F := Ideal) (m ((c : Thread nD τ).loc main_arg1)) := by
  show StableHlo.after hostOps1 (W2 m ρ c) (Proc.devRef .tc main_v1) = _
  after_results
  exact W2_v1 m ρ c
theorem W3_v3 : W3 m ρ c (Proc.devRef .tc main_v3) = targets (F := Ideal) (m ((c : Thread nD τ).loc main_arg1)) := by
  show StableHlo.after hostOps1 (W2 m ρ c) (Proc.devRef .tc main_v3) = _
  after_results
  exact W2_v3 m ρ c
theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg11 : W3 m ρ c (Proc.devRef .tc main_arg11) = m ((c : Thread nD τ).loc main_arg11) := by
  show StableHlo.after hostOps1 (W2 m ρ c) (Proc.devRef .tc main_arg11) = _
  after_results
  exact W2_arg11 m ρ c
theorem W3_arg12 : W3 m ρ c (Proc.devRef .tc main_arg12) = m ((c : Thread nD τ).loc main_arg12) := by
  show StableHlo.after hostOps1 (W2 m ρ c) (Proc.devRef .tc main_arg12) = _
  after_results
  exact W2_arg12 m ρ c
theorem W3_arg13 : W3 m ρ c (Proc.devRef .tc main_arg13) = m ((c : Thread nD τ).loc main_arg13) := by
  show StableHlo.after hostOps1 (W2 m ρ c) (Proc.devRef .tc main_arg13) = _
  after_results
  exact W2_arg13 m ρ c
theorem W3_arg14 : W3 m ρ c (Proc.devRef .tc main_arg14) = m ((c : Thread nD τ).loc main_arg14) := by
  show StableHlo.after hostOps1 (W2 m ρ c) (Proc.devRef .tc main_arg14) = _
  after_results
  exact W2_arg14 m ρ c

/-! ## After the second region: the second layer's output -/

theorem W4_v29 : W4 m ρ c (Proc.devRef .tc main_v29) = out2 m c := by
  refine (W4_arr m ρ c 6).trans ((Region1.final (V3 m ρ) c).trans ?_)
  show layerReluRow (a := 100000) (n := 128) (W3 m ρ c (Proc.devRef .tc main_v26)) (W3 m ρ c (Proc.devRef .tc main_v16)) (W3 m ρ c (Proc.devRef .tc main_arg7)) (W3 m ρ c (Proc.devRef .tc main_v27)) (W3 m ρ c (Proc.devRef .tc main_arg9)) (W3 m ρ c (Proc.devRef .tc main_v28)) = _
  rw [W3_v26 m ρ c, W3_v16 m ρ c, W3_arg7 m ρ c, W3_v27 m ρ c, W3_arg9 m ρ c, W3_v28 m ρ c]
  rfl
theorem W4_v1 : W4 m ρ c (Proc.devRef .tc main_v1) = sources (F := Ideal) (m ((c : Thread nD τ).loc main_arg1)) :=
  (W4_of_ne m ρ c main_v1 (by decide)).trans (W3_v1 m ρ c)
theorem W4_v3 : W4 m ρ c (Proc.devRef .tc main_v3) = targets (F := Ideal) (m ((c : Thread nD τ).loc main_arg1)) :=
  (W4_of_ne m ρ c main_v3 (by decide)).trans (W3_v3 m ρ c)
theorem W4_arg2 : W4 m ρ c (Proc.devRef .tc main_arg2) = m ((c : Thread nD τ).loc main_arg2) :=
  (W4_of_ne m ρ c main_arg2 (by decide)).trans (W3_arg2 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)

/-! ## After the third stretch: the third neighbour sums and biases -/

theorem W5_v39 : W5 m ρ c (Proc.devRef .tc main_v39) = neighbourSum (out2 m c) (m ((c : Thread nD τ).loc main_arg1)) := by
  show StableHlo.after hostOps2 (W4 m ρ c) (Proc.devRef .tc main_v39) = _
  after_results
  rw [W4_v29 m ρ c, W4_v1 m ρ c, W4_v3 m ρ c]
  rfl
theorem W5_v40 : W5 m ρ c (Proc.devRef .tc main_v40) = biasRow (m ((c : Thread nD τ).loc main_arg12)) := by
  show StableHlo.after hostOps2 (W4 m ρ c) (Proc.devRef .tc main_v40) = _
  after_results
  rw [W4_arg12 m ρ c]
  rfl
theorem W5_v41 : W5 m ρ c (Proc.devRef .tc main_v41) = biasRow (m ((c : Thread nD τ).loc main_arg14)) := by
  show StableHlo.after hostOps2 (W4 m ρ c) (Proc.devRef .tc main_v41) = _
  after_results
  rw [W4_arg14 m ρ c]
  rfl
theorem W5_v29 : W5 m ρ c (Proc.devRef .tc main_v29) = out2 m c := by
  show StableHlo.after hostOps2 (W4 m ρ c) (Proc.devRef .tc main_v29) = _
  after_results
  exact W4_v29 m ρ c
theorem W5_arg2 : W5 m ρ c (Proc.devRef .tc main_arg2) = m ((c : Thread nD τ).loc main_arg2) := by
  show StableHlo.after hostOps2 (W4 m ρ c) (Proc.devRef .tc main_arg2) = _
  after_results
  exact W4_arg2 m ρ c
theorem W5_arg11 : W5 m ρ c (Proc.devRef .tc main_arg11) = m ((c : Thread nD τ).loc main_arg11) := by
  show StableHlo.after hostOps2 (W4 m ρ c) (Proc.devRef .tc main_arg11) = _
  after_results
  exact W4_arg11 m ρ c
theorem W5_arg13 : W5 m ρ c (Proc.devRef .tc main_arg13) = m ((c : Thread nD τ).loc main_arg13) := by
  show StableHlo.after hostOps2 (W4 m ρ c) (Proc.devRef .tc main_arg13) = _
  after_results
  exact W4_arg13 m ρ c

/-! ## After the third region: the third layer's output -/

theorem W6_v42 : W6 m ρ c (Proc.devRef .tc main_v42) = out3 m c := by
  refine (W6_arr m ρ c 6).trans ((Region2.final (V5 m ρ) c).trans ?_)
  show layerLinRow (a := 100000) (n := 128) (W5 m ρ c (Proc.devRef .tc main_v39)) (W5 m ρ c (Proc.devRef .tc main_v29)) (W5 m ρ c (Proc.devRef .tc main_arg11)) (W5 m ρ c (Proc.devRef .tc main_v40)) (W5 m ρ c (Proc.devRef .tc main_arg13)) (W5 m ρ c (Proc.devRef .tc main_v41)) = _
  rw [W5_v39 m ρ c, W5_v29 m ρ c, W5_arg11 m ρ c, W5_v40 m ρ c, W5_arg13 m ρ c, W5_v41 m ρ c]
  rfl
theorem W6_arg2 : W6 m ρ c (Proc.devRef .tc main_arg2) = m ((c : Thread nD τ).loc main_arg2) :=
  (W6_of_ne m ρ c main_arg2 (by decide)).trans (W5_arg2 m ρ c)

/-! ## After the last stretch: the result -/

/-- The result buffer at the last boundary: the mean pool of the third layer's output. -/
theorem result : W7 m ρ c (Proc.devRef .tc main_v55) = meanPool (out3 m c) (m ((c : Thread nD τ).loc main_arg2)) := by
  show StableHlo.after hostOps3 (W6 m ρ c) (Proc.devRef .tc main_v55) = _
  after_results_simp
  rw [W6_v42 m ρ c, W6_arg2 m ρ c]
  rfl

/-! ## The same as the network of the arguments: a bias row is the bias vector seen as a one-row matrix -/

theorem out1_eq : out1 m c = convRelu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  convRelu_rows _ _ _ _ _ _

theorem out2_eq : out2 m c = convRelu (convRelu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10)) := by
  rw [← out1_eq m c]
  exact convRelu_rows _ _ _ _ _ _

theorem out3_eq : out3 m c = convLin (convRelu (convRelu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg11)) (m ((c : Thread nD τ).loc main_arg12)) (m ((c : Thread nD τ).loc main_arg13)) (m ((c : Thread nD τ).loc main_arg14)) := by
  rw [← out2_eq m c]
  exact convLin_rows _ _ _ _ _ _

/-- The result buffer at the last boundary is the network of the argument arrays. -/
theorem result_network : W7 m ρ c (Proc.devRef .tc main_v55) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [result m ρ c, out3_eq m c]
  rfl

end Cert.KernelIdeal.Fold

end
-- ==== Proof.Reference.lean ====
/-
  The reference program's result is the network of its arguments.

  The reference is one straight line of host operations; its generated reading names every operation's value as a
  function of the arguments (`val_main_vN`). Stage by stage: the gather and scatter-add in front of each layer are the
  neighbour sums; the sum, the general product contracting the columns of the left operand with the rows of the right,
  the bias laid along the rows, the maximum with a zero splat, and the same again are the layer (the maximum after the
  first two layers is the called rectifier, its operations standing in the call's place); the two scatter-adds, the
  maximum with one, the quotient and the flattening are the mean pool.
-/
import proofs.«150781_j69114613727581_2_alg».proof.Proof.Gen.ReferenceIdeal.Read
import proofs.«150781_j69114613727581_2_alg».proof.Proof.Network

set_option maxRecDepth 16384

noncomputable section

namespace Cert.ReferenceIdeal.Bridge

open Idealize.ShloMosaic Cert.ReferenceIdeal Cert.ReferenceIdeal.Gen Cert.ReferenceIdeal.Read Cert.Gin Cert.KernelIdeal.Host Cert.ColsMatmul

/-- The dimension numbers of the reference's products: axis 1 of the left operand against axis 0 of the right. -/
theorem dims_eq : dot_S100000x128_S128x128_S100000x128_1_0_0_1_n_n
    = colsDims (a := 100000) (n := 128) (b := 128) dot_S100000x128_S128x128_S100000x128_1_0_0_1_n_n_wf := rfl

/-! ## The gathers and scatter-adds are the neighbour sums -/

theorem sums1 (x0 : (⟨S100000x128, .f32⟩ : BufTy).Contents (Elt Ideal)) (x1 : (⟨S2x1600000, .i32⟩ : BufTy).Contents (Elt Ideal)) : val_main_v13 (F := Ideal) x0 x1 = neighbourSum x0 x1 := rfl

theorem sums2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v35 (F := Ideal) x0 x1 x3 x4 x5 x6 = neighbourSum (val_main_v25 (F := Ideal) x0 x1 x3 x4 x5 x6) x1 := rfl

theorem sums3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v57 (F := Ideal) x0 x1 x3 x4 x5 x6 x7 x8 x9 x10 = neighbourSum (val_main_v47 (F := Ideal) x0 x1 x3 x4 x5 x6 x7 x8 x9 x10) x1 := rfl

/-! ## The three layers -/

theorem step1 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : val_main_v25 (F := Ideal) x0 x1 x3 x4 x5 x6 = convRelu x0 x1 x3 x4 x5 x6 := by
  unfold val_main_v25 val_main_v24 val_main_v21 val_main_v20 val_main_v18 val_main_v15 val_main_v14 val_main_v17 val_main_v16 val_main_v19 val_main_cst_1 val_main_v23 val_main_v22 val_main_call0_v0 val_main_call0_cst convRelu
  rw [sums1]
  exact host_layerRelu (a := 100000) (n := 128) dot_S100000x128_S128x128_S100000x128_1_0_0_1_n_n_wf _ dims_eq
    (neighbourSum x0 x1) x0 x3 x5 x4 x6 bcast_S128_S1x128_1 bcast_S1x128_S100000x128_0_1 bcast_S_S100000x128

theorem step2 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v47 (F := Ideal) x0 x1 x3 x4 x5 x6 x7 x8 x9 x10 = convRelu (val_main_v25 (F := Ideal) x0 x1 x3 x4 x5 x6) x1 x7 x8 x9 x10 := by
  unfold val_main_v47 val_main_v46 val_main_v43 val_main_v42 val_main_v40 val_main_v37 val_main_v36 val_main_v39 val_main_v38 val_main_v41 val_main_cst_5 val_main_v45 val_main_v44 val_main_call1_v0 val_main_call1_cst convRelu
  rw [sums2]
  exact host_layerRelu (a := 100000) (n := 128) dot_S100000x128_S128x128_S100000x128_1_0_0_1_n_n_wf _ dims_eq
    (neighbourSum (val_main_v25 (F := Ideal) x0 x1 x3 x4 x5 x6) x1) (val_main_v25 (F := Ideal) x0 x1 x3 x4 x5 x6) x7 x9 x8 x10
    bcast_S128_S1x128_1 bcast_S1x128_S100000x128_0_1 bcast_S_S100000x128

theorem step3 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v68 (F := Ideal) x0 x1 x3 x4 x5 x6 x7 x8 x9 x10 x11 x12 x13 x14 = convLin (val_main_v47 (F := Ideal) x0 x1 x3 x4 x5 x6 x7 x8 x9 x10) x1 x11 x12 x13 x14 := by
  unfold val_main_v68 val_main_v65 val_main_v64 val_main_v62 val_main_v59 val_main_v58 val_main_v61 val_main_v60 val_main_v63 val_main_cst_9 val_main_v67 val_main_v66 convLin
  rw [sums3]
  exact host_layerLin (a := 100000) (n := 128) dot_S100000x128_S128x128_S100000x128_1_0_0_1_n_n_wf _ dims_eq
    (neighbourSum (val_main_v47 (F := Ideal) x0 x1 x3 x4 x5 x6 x7 x8 x9 x10) x1) (val_main_v47 (F := Ideal) x0 x1 x3 x4 x5 x6 x7 x8 x9 x10) x11 x13 x12 x14
    bcast_S128_S1x128_1 bcast_S1x128_S100000x128_0_1 bcast_S_S100000x128

/-! ## The result -/

theorem pooled (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v81 (F := Ideal) x0 x1 x2 x3 x4 x5 x6 x7 x8 x9 x10 x11 x12 x13 x14 = meanPool (val_main_v68 (F := Ideal) x0 x1 x3 x4 x5 x6 x7 x8 x9 x10 x11 x12 x13 x14) x2 := rfl

/-- The reference's result is the network of its arguments. -/
theorem result (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    val_main_v81 (F := Ideal) x0 x1 x2 x3 x4 x5 x6 x7 x8 x9 x10 x11 x12 x13 x14 = network x0 x1 x2 x3 x4 x5 x6 x7 x8 x9 x10 x11 x12 x13 x14 := by
  rw [pooled, step3, step2, step1]
  rfl

end Cert.ReferenceIdeal.Bridge

end
-- ==== Proof.lean ====
/-
  The certificate of a three-layer graph isomorphism network with a mean pool: the kernel program against its
  reference, on the extended reals.

  Both programs compute, from node features x, an edge list e, a node-to-graph map g and three layers' weights and
  biases, three graph-convolution steps h ↦ layer (neighbourSum h e, h) and the mean of the result over each graph's
  nodes. The reference does all of it on the host. The kernel program does the neighbour sums and the mean pool on the
  host by the same operations, and each layer — the sum with h, two products with a bias along the rows and a maximum
  with zero between them, and for the first two layers a last maximum — in a kernel region over 50 blocks of 2000 rows,
  its matrix-unit products fed through a shorter float format. On the extended reals a change of format is the
  identity and the matrix unit's product into a zero accumulator is the host's general product, the plain sum of
  products; the two programs apply the same operations in the same order, so no law of arithmetic beyond the
  definitions is used and the inputs' finiteness is never needed.

  The kernel program's value: the run of its segments with the result named (KernelRun), each region's output array as
  the layer of its entry arrays (KernelBlocks, Region0–2), the boundaries read in order (KernelFold). The reference's
  value: its generated run and stage-by-stage reading, identified with the same network (Reference). The frames of the
  two kernel programs are the generated ones; the reference's frame is its run with the result dropped; the
  idealization rewrote no operation, so there is nothing to preserve.
-/
import proofs.«150781_j69114613727581_2_alg».proof.Defs
import proofs.«150781_j69114613727581_2_alg».proof.Proof.Gen.Kernel
import proofs.«150781_j69114613727581_2_alg».proof.Proof.Gen.Kernel.Skeleton
import proofs.«150781_j69114613727581_2_alg».proof.Proof.Gen.Kernel.Launch
import proofs.«150781_j69114613727581_2_alg».proof.Proof.Gen.Kernel.Points
import proofs.«150781_j69114613727581_2_alg».proof.Proof.Gen.Kernel.Frame
import proofs.«150781_j69114613727581_2_alg».proof.Proof.Gen.KernelIdeal
import proofs.«150781_j69114613727581_2_alg».proof.Proof.Gen.KernelIdeal.Skeleton
import proofs.«150781_j69114613727581_2_alg».proof.Proof.Gen.KernelIdeal.Launch
import proofs.«150781_j69114613727581_2_alg».proof.Proof.Gen.KernelIdeal.Points
import proofs.«150781_j69114613727581_2_alg».proof.Proof.Gen.KernelIdeal.Frame
import proofs.«150781_j69114613727581_2_alg».proof.Proof.Gen.ReferenceIdeal
import proofs.«150781_j69114613727581_2_alg».proof.Proof.Gen.ReferenceIdeal.Run
import proofs.«150781_j69114613727581_2_alg».proof.Proof.Gen.ReferenceIdeal.Read
import proofs.«150781_j69114613727581_2_alg».proof.Proof.Gen.Pre_finite_inputs
import proofs.«150781_j69114613727581_2_alg».proof.Proof.KernelRun
import proofs.«150781_j69114613727581_2_alg».proof.Proof.KernelFold
import proofs.«150781_j69114613727581_2_alg».proof.Proof.Network
import proofs.«150781_j69114613727581_2_alg».proof.Proof.Reference
import Idealize.ShloMosaic.Adequacy
import Idealize.ShloMosaic.Init

noncomputable section

namespace Cert.Proof

open Idealize.ShloMosaic Idealize.SL.Sem

/-- The kernel program as printed runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network of the arguments in their result
    buffers: the kernel program by its run and the reading of its boundaries, the reference by its run and the reading
    of its stages. -/
theorem algebraic : Cert.algebraic_KernelIdeal_ReferenceIdeal := by
  intro m ρ m' ρ' _ hagree
  refine ⟨fun c => Cert.Gin.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Fold.result_network m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact Cert.ReferenceIdeal.Bridge.result _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
